-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) (main_arg1 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  main_v8
-- ==== Kernel.lean ====
abbrev S16384x4096 : Shape := ⟨2, ![16384, 4096]⟩
abbrev S2x8x4096 : Shape := ⟨3, ![2, 8, 4096]⟩
abbrev S256x4096 : Shape := ⟨2, ![256, 4096]⟩
abbrev S1x8x4096 : Shape := ⟨3, ![1, 8, 4096]⟩
abbrev S8x1024 : Shape := ⟨2, ![8, 1024]⟩
abbrev S1x8x1024 : Shape := ⟨3, ![1, 8, 1024]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S2x8x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x8x4096, .f32⟩
  | .local _ .vmem, ⟨5, _⟩ => ⟨S1x8x4096, .f32⟩
  | .local _ .vmem, ⟨6, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond3 (i : grid0.Coords) : BitVec 1 :=
  let arg1 : BitVec 32 := BitVec.ofNat 32 (i 1).val
  let c31_i32 : BitVec 32 := 31#32
  let v6 : BitVec 1 := Scalar.cmpi .eq arg1 c31_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S256x4096_S8x1024_0_0 : ∀ a, (![0, 0] : Fin 2 → Nat) a + S8x1024.size a ≤ S256x4096.size a
  h_S8x1024 : 0 < S8x1024.numel
  shapeCasts_S8x1024_S8x1024 : S8x1024.ShapeCasts S8x1024
  inb_S256x4096_S8x1024_0_1024 : ∀ a, (![0, 1024] : Fin 2 → Nat) a + S8x1024.size a ≤ S256x4096.size a
  inb_S256x4096_S8x1024_0_2048 : ∀ a, (![0, 2048] : Fin 2 → Nat) a + S8x1024.size a ≤ S256x4096.size a
  inb_S256x4096_S8x1024_0_3072 : ∀ a, (![0, 3072] : Fin 2 → Nat) a + S8x1024.size a ≤ S256x4096.size a
  inb_S256x4096_S8x1024_8_0 : ∀ a, (![8, 0] : Fin 2 → Nat) a + S8x1024.size a ≤ S256x4096.size a
  inb_S256x4096_S8x1024_8_1024 : ∀ a, (![8, 1024] : Fin 2 → Nat) a + S8x1024.size a ≤ S256x4096.size a
  inb_S256x4096_S8x1024_8_2048 : ∀ a, (![8, 2048] : Fin 2 → Nat) a + S8x1024.size a ≤ S256x4096.size a
  inb_S256x4096_S8x1024_8_3072 : ∀ a, (![8, 3072] : Fin 2 → Nat) a + S8x1024.size a ≤ S256x4096.size a
  inb_S256x4096_S8x1024_16_0 : ∀ a, (![16, 0] : Fin 2 → Nat) a + S8x1024.size a ≤ S256x4096.size a
  inb_S256x4096_S8x1024_16_1024 : ∀ a, (![16, 1024] : Fin 2 → Nat) a + S8x1024.size a ≤ S256x4096.size a
  inb_S256x4096_S8x1024_16_2048 : ∀ a, (![16, 2048] : Fin 2 → Nat) a + S8x1024.size a ≤ S256x4096.size a
  inb_S256x4096_S8x1024_16_3072 : ∀ a, (![16, 3072] : Fin 2 → Nat) a + S8x1024.size a ≤ S256x4096.size a
  inb_S256x4096_S8x1024_24_0 : ∀ a, (![24, 0] : Fin 2 → Nat) a + S8x1024.size a ≤ S256x4096.size a
  inb_S256x4096_S8x1024_24_1024 : ∀ a, (![24, 1024] : Fin 2 → Nat) a + S8x1024.size a ≤ S256x4096.size a
  inb_S256x4096_S8x1024_24_2048 : ∀ a, (![24, 2048] : Fin 2 → Nat) a + S8x1024.size a ≤ S256x4096.size a
  inb_S256x4096_S8x1024_24_3072 : ∀ a, (![24, 3072] : Fin 2 → Nat) a + S8x1024.size a ≤ S256x4096.size a
  inb_S256x4096_S8x1024_32_0 : ∀ a, (![32, 0] : Fin 2 → Nat) a + S8x1024.size a ≤ S256x4096.size a
  inb_S256x4096_S8x1024_32_1024 : ∀ a, (![32, 1024] : Fin 2 → Nat) a + S8x1024.size a ≤ S256x4096.size a
  inb_S256x4096_S8x1024_32_2048 : ∀ a, (![32, 2048] : Fin 2 → Nat) a + S8x1024.size a ≤ S256x4096.size a
  inb_S256x4096_S8x1024_32_3072 : ∀ a, (![32, 3072] : Fin 2 → Nat) a + S8x1024.size a ≤ S256x4096.size a
  inb_S256x4096_S8x1024_40_0 : ∀ a, (![40, 0] : Fin 2 → Nat) a + S8x1024.size a ≤ S256x4096.size a
  inb_S256x4096_S8x1024_40_1024 : ∀ a, (![40, 1024] : Fin 2 → Nat) a + S8x1024.size a ≤ S256x4096.size a
  inb_S256x4096_S8x1024_40_2048 : ∀ a, (![40, 2048] : Fin 2 → Nat) a + S8x1024.size a ≤ S256x4096.size a
  inb_S256x4096_S8x1024_40_3072 : ∀ a, (![40, 3072] : Fin 2 → Nat) a + S8x1024.size a ≤ S256x4096.size a
  inb_S256x4096_S8x1024_48_0 : ∀ a, (![48, 0] : Fin 2 → Nat) a + S8x1024.size a ≤ S256x4096.size a
  inb_S256x4096_S8x1024_48_1024 : ∀ a, (![48, 1024] : Fin 2 → Nat) a + S8x1024.size a ≤ S256x4096.size a
  inb_S256x4096_S8x1024_48_2048 : ∀ a, (![48, 2048] : Fin 2 → Nat) a + S8x1024.size a ≤ S256x4096.size a
  inb_S256x4096_S8x1024_48_3072 : ∀ a, (![48, 3072] : Fin 2 → Nat) a + S8x1024.size a ≤ S256x4096.size a
  inb_S256x4096_S8x1024_56_0 : ∀ a, (![56, 0] : Fin 2 → Nat) a + S8x1024.size a ≤ S256x4096.size a
  inb_S256x4096_S8x1024_56_1024 : ∀ a, (![56, 1024] : Fin 2 → Nat) a + S8x1024.size a ≤ S256x4096.size a
  inb_S256x4096_S8x1024_56_2048 : ∀ a, (![56, 2048] : Fin 2 → Nat) a + S8x1024.size a ≤ S256x4096.size a
  inb_S256x4096_S8x1024_56_3072 : ∀ a, (![56, 3072] : Fin 2 → Nat) a + S8x1024.size a ≤ S256x4096.size a
  inb_S256x4096_S8x1024_64_0 : ∀ a, (![64, 0] : Fin 2 → Nat) a + S8x1024.size a ≤ S256x4096.size a
  inb_S256x4096_S8x1024_64_1024 : ∀ a, (![64, 1024] : Fin 2 → Nat) a + S8x1024.size a ≤ S256x4096.size a
  inb_S256x4096_S8x1024_64_2048 : ∀ a, (![64, 2048] : Fin 2 → Nat) a + S8x1024.size a ≤ S256x4096.size a
  inb_S256x4096_S8x1024_64_3072 : ∀ a, (![64, 3072] : Fin 2 → Nat) a + S8x1024.size a ≤ S256x4096.size a
  inb_S256x4096_S8x1024_72_0 : ∀ a, (![72, 0] : Fin 2 → Nat) a + S8x1024.size a ≤ S256x4096.size a
  inb_S256x4096_S8x1024_72_1024 : ∀ a, (![72, 1024] : Fin 2 → Nat) a + S8x1024.size a ≤ S256x4096.size a
  inb_S256x4096_S8x1024_72_2048 : ∀ a, (![72, 2048] : Fin 2 → Nat) a + S8x1024.size a ≤ S256x4096.size a
  inb_S256x4096_S8x1024_72_3072 : ∀ a, (![72, 3072] : Fin 2 → Nat) a + S8x1024.size a ≤ S256x4096.size a
  inb_S256x4096_S8x1024_80_0 : ∀ a, (![80, 0] : Fin 2 → Nat) a + S8x1024.size a ≤ S256x4096.size a
  inb_S256x4096_S8x1024_80_1024 : ∀ a, (![80, 1024] : Fin 2 → Nat) a + S8x1024.size a ≤ S256x4096.size a
  inb_S256x4096_S8x1024_80_2048 : ∀ a, (![80, 2048] : Fin 2 → Nat) a + S8x1024.size a ≤ S256x4096.size a
  inb_S256x4096_S8x1024_80_3072 : ∀ a, (![80, 3072] : Fin 2 → Nat) a + S8x1024.size a ≤ S256x4096.size a
  inb_S256x4096_S8x1024_88_0 : ∀ a, (![88, 0] : Fin 2 → Nat) a + S8x1024.size a ≤ S256x4096.size a
  inb_S256x4096_S8x1024_88_1024 : ∀ a, (![88, 1024] : Fin 2 → Nat) a + S8x1024.size a ≤ S256x4096.size a
  inb_S256x4096_S8x1024_88_2048 : ∀ a, (![88, 2048] : Fin 2 → Nat) a + S8x1024.size a ≤ S256x4096.size a
  inb_S256x4096_S8x1024_88_3072 : ∀ a, (![88, 3072] : Fin 2 → Nat) a + S8x1024.size a ≤ S256x4096.size a
  inb_S256x4096_S8x1024_96_0 : ∀ a, (![96, 0] : Fin 2 → Nat) a + S8x1024.size a ≤ S256x4096.size a
  inb_S256x4096_S8x1024_96_1024 : ∀ a, (![96, 1024] : Fin 2 → Nat) a + S8x1024.size a ≤ S256x4096.size a
  inb_S256x4096_S8x1024_96_2048 : ∀ a, (![96, 2048] : Fin 2 → Nat) a + S8x1024.size a ≤ S256x4096.size a
  inb_S256x4096_S8x1024_96_3072 : ∀ a, (![96, 3072] : Fin 2 → Nat) a + S8x1024.size a ≤ S256x4096.size a
  inb_S256x4096_S8x1024_104_0 : ∀ a, (![104, 0] : Fin 2 → Nat) a + S8x1024.size a ≤ S256x4096.size a
  inb_S256x4096_S8x1024_104_1024 : ∀ a, (![104, 1024] : Fin 2 → Nat) a + S8x1024.size a ≤ S256x4096.size a
  inb_S256x4096_S8x1024_104_2048 : ∀ a, (![104, 2048] : Fin 2 → Nat) a + S8x1024.size a ≤ S256x4096.size a
  inb_S256x4096_S8x1024_104_3072 : ∀ a, (![104, 3072] : Fin 2 → Nat) a + S8x1024.size a ≤ S256x4096.size a
  inb_S256x4096_S8x1024_112_0 : ∀ a, (![112, 0] : Fin 2 → Nat) a + S8x1024.size a ≤ S256x4096.size a
  inb_S256x4096_S8x1024_112_1024 : ∀ a, (![112, 1024] : Fin 2 → Nat) a + S8x1024.size a ≤ S256x4096.size a
  inb_S256x4096_S8x1024_112_2048 : ∀ a, (![112, 2048] : Fin 2 → Nat) a + S8x1024.size a ≤ S256x4096.size a
  inb_S256x4096_S8x1024_112_3072 : ∀ a, (![112, 3072] : Fin 2 → Nat) a + S8x1024.size a ≤ S256x4096.size a
  inb_S256x4096_S8x1024_120_0 : ∀ a, (![120, 0] : Fin 2 → Nat) a + S8x1024.size a ≤ S256x4096.size a
  inb_S256x4096_S8x1024_120_1024 : ∀ a, (![120, 1024] : Fin 2 → Nat) a + S8x1024.size a ≤ S256x4096.size a
  inb_S256x4096_S8x1024_120_2048 : ∀ a, (![120, 2048] : Fin 2 → Nat) a + S8x1024.size a ≤ S256x4096.size a
  inb_S256x4096_S8x1024_120_3072 : ∀ a, (![120, 3072] : Fin 2 → Nat) a + S8x1024.size a ≤ S256x4096.size a
  inb_S256x4096_S8x1024_128_0 : ∀ a, (![128, 0] : Fin 2 → Nat) a + S8x1024.size a ≤ S256x4096.size a
  inb_S256x4096_S8x1024_128_1024 : ∀ a, (![128, 1024] : Fin 2 → Nat) a + S8x1024.size a ≤ S256x4096.size a
  inb_S256x4096_S8x1024_128_2048 : ∀ a, (![128, 2048] : Fin 2 → Nat) a + S8x1024.size a ≤ S256x4096.size a
  inb_S256x4096_S8x1024_128_3072 : ∀ a, (![128, 3072] : Fin 2 → Nat) a + S8x1024.size a ≤ S256x4096.size a
  inb_S256x4096_S8x1024_136_0 : ∀ a, (![136, 0] : Fin 2 → Nat) a + S8x1024.size a ≤ S256x4096.size a
  inb_S256x4096_S8x1024_136_1024 : ∀ a, (![136, 1024] : Fin 2 → Nat) a + S8x1024.size a ≤ S256x4096.size a
  inb_S256x4096_S8x1024_136_2048 : ∀ a, (![136, 2048] : Fin 2 → Nat) a + S8x1024.size a ≤ S256x4096.size a
  inb_S256x4096_S8x1024_136_3072 : ∀ a, (![136, 3072] : Fin 2 → Nat) a + S8x1024.size a ≤ S256x4096.size a
  inb_S256x4096_S8x1024_144_0 : ∀ a, (![144, 0] : Fin 2 → Nat) a + S8x1024.size a ≤ S256x4096.size a
  inb_S256x4096_S8x1024_144_1024 : ∀ a, (![144, 1024] : Fin 2 → Nat) a + S8x1024.size a ≤ S256x4096.size a
  inb_S256x4096_S8x1024_144_2048 : ∀ a, (![144, 2048] : Fin 2 → Nat) a + S8x1024.size a ≤ S256x4096.size a
  inb_S256x4096_S8x1024_144_3072 : ∀ a, (![144, 3072] : Fin 2 → Nat) a + S8x1024.size a ≤ S256x4096.size a
  inb_S256x4096_S8x1024_152_0 : ∀ a, (![152, 0] : Fin 2 → Nat) a + S8x1024.size a ≤ S256x4096.size a
  inb_S256x4096_S8x1024_152_1024 : ∀ a, (![152, 1024] : Fin 2 → Nat) a + S8x1024.size a ≤ S256x4096.size a
  inb_S256x4096_S8x1024_152_2048 : ∀ a, (![152, 2048] : Fin 2 → Nat) a + S8x1024.size a ≤ S256x4096.size a
  inb_S256x4096_S8x1024_152_3072 : ∀ a, (![152, 3072] : Fin 2 → Nat) a + S8x1024.size a ≤ S256x4096.size a
  inb_S256x4096_S8x1024_160_0 : ∀ a, (![160, 0] : Fin 2 → Nat) a + S8x1024.size a ≤ S256x4096.size a
  inb_S256x4096_S8x1024_160_1024 : ∀ a, (![160, 1024] : Fin 2 → Nat) a + S8x1024.size a ≤ S256x4096.size a
  inb_S256x4096_S8x1024_160_2048 : ∀ a, (![160, 2048] : Fin 2 → Nat) a + S8x1024.size a ≤ S256x4096.size a
  inb_S256x4096_S8x1024_160_3072 : ∀ a, (![160, 3072] : Fin 2 → Nat) a + S8x1024.size a ≤ S256x4096.size a
  inb_S256x4096_S8x1024_168_0 : ∀ a, (![168, 0] : Fin 2 → Nat) a + S8x1024.size a ≤ S256x4096.size a
  inb_S256x4096_S8x1024_168_1024 : ∀ a, (![168, 1024] : Fin 2 → Nat) a + S8x1024.size a ≤ S256x4096.size a
  inb_S256x4096_S8x1024_168_2048 : ∀ a, (![168, 2048] : Fin 2 → Nat) a + S8x1024.size a ≤ S256x4096.size a
  inb_S256x4096_S8x1024_168_3072 : ∀ a, (![168, 3072] : Fin 2 → Nat) a + S8x1024.size a ≤ S256x4096.size a
  inb_S256x4096_S8x1024_176_0 : ∀ a, (![176, 0] : Fin 2 → Nat) a + S8x1024.size a ≤ S256x4096.size a
  inb_S256x4096_S8x1024_176_1024 : ∀ a, (![176, 1024] : Fin 2 → Nat) a + S8x1024.size a ≤ S256x4096.size a
  inb_S256x4096_S8x1024_176_2048 : ∀ a, (![176, 2048] : Fin 2 → Nat) a + S8x1024.size a ≤ S256x4096.size a
  inb_S256x4096_S8x1024_176_3072 : ∀ a, (![176, 3072] : Fin 2 → Nat) a + S8x1024.size a ≤ S256x4096.size a
  inb_S256x4096_S8x1024_184_0 : ∀ a, (![184, 0] : Fin 2 → Nat) a + S8x1024.size a ≤ S256x4096.size a
  inb_S256x4096_S8x1024_184_1024 : ∀ a, (![184, 1024] : Fin 2 → Nat) a + S8x1024.size a ≤ S256x4096.size a
  inb_S256x4096_S8x1024_184_2048 : ∀ a, (![184, 2048] : Fin 2 → Nat) a + S8x1024.size a ≤ S256x4096.size a
  inb_S256x4096_S8x1024_184_3072 : ∀ a, (![184, 3072] : Fin 2 → Nat) a + S8x1024.size a ≤ S256x4096.size a
  inb_S256x4096_S8x1024_192_0 : ∀ a, (![192, 0] : Fin 2 → Nat) a + S8x1024.size a ≤ S256x4096.size a
  inb_S256x4096_S8x1024_192_1024 : ∀ a, (![192, 1024] : Fin 2 → Nat) a + S8x1024.size a ≤ S256x4096.size a
  inb_S256x4096_S8x1024_192_2048 : ∀ a, (![192, 2048] : Fin 2 → Nat) a + S8x1024.size a ≤ S256x4096.size a
  inb_S256x4096_S8x1024_192_3072 : ∀ a, (![192, 3072] : Fin 2 → Nat) a + S8x1024.size a ≤ S256x4096.size a
  inb_S256x4096_S8x1024_200_0 : ∀ a, (![200, 0] : Fin 2 → Nat) a + S8x1024.size a ≤ S256x4096.size a
  inb_S256x4096_S8x1024_200_1024 : ∀ a, (![200, 1024] : Fin 2 → Nat) a + S8x1024.size a ≤ S256x4096.size a
  inb_S256x4096_S8x1024_200_2048 : ∀ a, (![200, 2048] : Fin 2 → Nat) a + S8x1024.size a ≤ S256x4096.size a
  inb_S256x4096_S8x1024_200_3072 : ∀ a, (![200, 3072] : Fin 2 → Nat) a + S8x1024.size a ≤ S256x4096.size a
  inb_S256x4096_S8x1024_208_0 : ∀ a, (![208, 0] : Fin 2 → Nat) a + S8x1024.size a ≤ S256x4096.size a
  inb_S256x4096_S8x1024_208_1024 : ∀ a, (![208, 1024] : Fin 2 → Nat) a + S8x1024.size a ≤ S256x4096.size a
  inb_S256x4096_S8x1024_208_2048 : ∀ a, (![208, 2048] : Fin 2 → Nat) a + S8x1024.size a ≤ S256x4096.size a
  inb_S256x4096_S8x1024_208_3072 : ∀ a, (![208, 3072] : Fin 2 → Nat) a + S8x1024.size a ≤ S256x4096.size a
  inb_S256x4096_S8x1024_216_0 : ∀ a, (![216, 0] : Fin 2 → Nat) a + S8x1024.size a ≤ S256x4096.size a
  inb_S256x4096_S8x1024_216_1024 : ∀ a, (![216, 1024] : Fin 2 → Nat) a + S8x1024.size a ≤ S256x4096.size a
  inb_S256x4096_S8x1024_216_2048 : ∀ a, (![216, 2048] : Fin 2 → Nat) a + S8x1024.size a ≤ S256x4096.size a
  inb_S256x4096_S8x1024_216_3072 : ∀ a, (![216, 3072] : Fin 2 → Nat) a + S8x1024.size a ≤ S256x4096.size a
  inb_S256x4096_S8x1024_224_0 : ∀ a, (![224, 0] : Fin 2 → Nat) a + S8x1024.size a ≤ S256x4096.size a
  inb_S256x4096_S8x1024_224_1024 : ∀ a, (![224, 1024] : Fin 2 → Nat) a + S8x1024.size a ≤ S256x4096.size a
  inb_S256x4096_S8x1024_224_2048 : ∀ a, (![224, 2048] : Fin 2 → Nat) a + S8x1024.size a ≤ S256x4096.size a
  inb_S256x4096_S8x1024_224_3072 : ∀ a, (![224, 3072] : Fin 2 → Nat) a + S8x1024.size a ≤ S256x4096.size a
  inb_S256x4096_S8x1024_232_0 : ∀ a, (![232, 0] : Fin 2 → Nat) a + S8x1024.size a ≤ S256x4096.size a
  inb_S256x4096_S8x1024_232_1024 : ∀ a, (![232, 1024] : Fin 2 → Nat) a + S8x1024.size a ≤ S256x4096.size a
  inb_S256x4096_S8x1024_232_2048 : ∀ a, (![232, 2048] : Fin 2 → Nat) a + S8x1024.size a ≤ S256x4096.size a
  inb_S256x4096_S8x1024_232_3072 : ∀ a, (![232, 3072] : Fin 2 → Nat) a + S8x1024.size a ≤ S256x4096.size a
  inb_S256x4096_S8x1024_240_0 : ∀ a, (![240, 0] : Fin 2 → Nat) a + S8x1024.size a ≤ S256x4096.size a
  inb_S256x4096_S8x1024_240_1024 : ∀ a, (![240, 1024] : Fin 2 → Nat) a + S8x1024.size a ≤ S256x4096.size a
  inb_S256x4096_S8x1024_240_2048 : ∀ a, (![240, 2048] : Fin 2 → Nat) a + S8x1024.size a ≤ S256x4096.size a
  inb_S256x4096_S8x1024_240_3072 : ∀ a, (![240, 3072] : Fin 2 → Nat) a + S8x1024.size a ≤ S256x4096.size a
  inb_S256x4096_S8x1024_248_0 : ∀ a, (![248, 0] : Fin 2 → Nat) a + S8x1024.size a ≤ S256x4096.size a
  inb_S256x4096_S8x1024_248_1024 : ∀ a, (![248, 1024] : Fin 2 → Nat) a + S8x1024.size a ≤ S256x4096.size a
  inb_S256x4096_S8x1024_248_2048 : ∀ a, (![248, 2048] : Fin 2 → Nat) a + S8x1024.size a ≤ S256x4096.size a
  inb_S256x4096_S8x1024_248_3072 : ∀ a, (![248, 3072] : Fin 2 → Nat) a + S8x1024.size a ≤ S256x4096.size a
  inb_S1x8x4096_S1x8x1024_0_0_0 : ∀ a, (![0, 0, 0] : Fin 3 → Nat) a + S1x8x1024.size a ≤ S1x8x4096.size a
  h_S1x8x1024 : 0 < S1x8x1024.numel
  shapeCasts_S1x8x1024_S8x1024 : S1x8x1024.ShapeCasts S8x1024
  shapeCasts_S8x1024_S1x8x1024 : S8x1024.ShapeCasts S1x8x1024
  inb_S1x8x4096_S1x8x1024_0_0_1024 : ∀ a, (![0, 0, 1024] : Fin 3 → Nat) a + S1x8x1024.size a ≤ S1x8x4096.size a
  inb_S1x8x4096_S1x8x1024_0_0_2048 : ∀ a, (![0, 0, 2048] : Fin 3 → Nat) a + S1x8x1024.size a ≤ S1x8x4096.size a
  inb_S1x8x4096_S1x8x1024_0_0_3072 : ∀ a, (![0, 0, 3072] : Fin 3 → Nat) a + S1x8x1024.size a ≤ S1x8x4096.size a
  reducesTo_S2x8x4096_S_d0_1_2 : S2x8x4096.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x4096.size a ≤ S2x8x4096.size a
  hwx0_2 : ∀ i : grid0.Coords, EltTy.bits .f32 = 32 ∨ (Rect.block (s := S2x8x4096) S1x8x4096.size (cc0_transform_2 i) (hinb0_2 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond3 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384x4096, .f32⟩
  | .hbm, ⟨6, _⟩ => ⟨S16384x4096, .i1⟩
  | .hbm, ⟨7, _⟩ => ⟨S_, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts₀]

class Facts : Prop extends Facts₀ where

variable [Facts]
-- ==== Proof.StepsBits.Shared.lean ====
/-
  The three kinds of grid step of the Huber kernel's body, and what the steps share.

  The grid is 2 x 32: point t has coordinates (t / 32, t % 32). The body branches on the second coordinate j:
  at j = 0 it writes the block's Huber terms into the row-block accumulator, at j > 0 it adds them to it, and at
  j = 31 it also folds the accumulator's 256 rows into 8 and stores them into the output block. So a point is a
  FIRST step (j = 0), an INNER step (0 < j < 31) or a LAST step (j = 31); the three conditions are decided over
  the 64 points in closed form. The output window is idle and not written back except at the last steps.
  The accumulator is a scratch buffer the kernel keeps from one point to the next.
-/
import proofs.«181023_g6820408066431_feedfinal_520_10_alg».proof.Proof.Gen.Kernel.Frame
import proofs.«181023_g6820408066431_feedfinal_520_10_alg».proof.Proof.Gen.Kernel.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three conditions on the second grid coordinate -/

/-- j = 0, as the body computes it. -/
abbrev condFirst (i : grid0.Coords) : Prop :=
  (Scalar.cmpi .ne (Scalar.extui (Scalar.cmpi .eq (BitVec.ofNat 32 (i 1).val) 0#32)) 0#32) = 1#1
theorem condFirst_iff : ∀ t : Fin cfg0.N, condFirst (grid0.coords t) ↔ t.val % 32 = 0 :=
  (by decide +kernel : ∀ t : Fin grid0.N, condFirst (grid0.coords t) ↔ t.val % 32 = 0)

/-- j > 0 (signed), as the body computes it. -/
abbrev condLater (i : grid0.Coords) : Prop :=
  (Scalar.cmpi .ne (Scalar.extui (Scalar.cmpi .sgt (BitVec.ofNat 32 (i 1).val) 0#32)) 0#32) = 1#1
theorem condLater_iff : ∀ t : Fin cfg0.N, condLater (grid0.coords t) ↔ ¬ t.val % 32 = 0 :=
  (by decide +kernel : ∀ t : Fin grid0.N, condLater (grid0.coords t) ↔ ¬ t.val % 32 = 0)

/-- j = 31, as the body computes it. -/
abbrev condLast (i : grid0.Coords) : Prop := k0_cond3 i = 1#1
theorem condLast_iff : ∀ t : Fin cfg0.N, condLast (grid0.coords t) ↔ t.val % 32 = 31 :=
  (by decide +kernel : ∀ t : Fin grid0.N, condLast (grid0.coords t) ↔ t.val % 32 = 31)

/-! ## Where the windows are idle -/

theorem live_in0 : ∀ t : Fin cfg0.N, cfg0.idle 0 (grid0.coords t) = false := by decide +kernel
theorem live_in1 : ∀ t : Fin cfg0.N, cfg0.idle 1 (grid0.coords t) = false := by decide +kernel
/-- Away from the last steps the output window is idle, -/
theorem idle_out : ∀ t : Fin cfg0.N, ¬condLast (grid0.coords t) → cfg0.idle 2 (grid0.coords t) = true := by decide +kernel
/-- and its block is not written back there. -/
theorem noFlush_out : ∀ t : Fin cfg0.N, ¬condLast (grid0.coords t) → (cfg0.win 2).flush t = false := by decide +kernel
/-- At a last step it is live. -/
theorem live_out : ∀ t : Fin cfg0.N, condLast (grid0.coords t) → cfg0.idle 2 (grid0.coords t) = false := by decide +kernel

/-! ## The memrefs a step is called with -/

/-- One staging buffer of the output window, through which its contents are stated. -/
abbrev VOut : View sig .tc .vmem S1x8x4096 .f32 := (Memref.whole cc0_stg2_0 : Memref sig .tc .vmem S1x8x4096 .f32).view
abbrev msA (t : Fin cfg0.N) : Memref sig .tc .vmem S256x4096 .f32 := win0_0.stage (cfg0.slots t 0)
abbrev hsA (t : Fin cfg0.N) : (msA t).IsWhole := hstage0_0 ((cfg0.slots t 0).cast nbuf0_0)
abbrev msB (t : Fin cfg0.N) : Memref sig .tc .vmem S256x4096 .f32 := win0_1.stage (cfg0.slots t 1)
abbrev hsB (t : Fin cfg0.N) : (msB t).IsWhole := hstage0_1 ((cfg0.slots t 1).cast nbuf0_1)
abbrev msO (t : Fin cfg0.N) : Memref sig .tc .vmem S1x8x4096 .f32 := win0_2.stage (cfg0.slots t 2)
abbrev hsO (t : Fin cfg0.N) : (msO t).IsWhole := hstage0_2 ((cfg0.slots t 2).cast nbuf0_2)
/-- The accumulator: a whole scoped buffer of the kernel's own. -/
abbrev scM : Memref sig .tc .vmem S256x4096 .f32 := Memref.whole cc0_scratch0
abbrev VS : View sig .tc .vmem S256x4096 .f32 := scM.view

/-- The region's invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.StepsBits.CaseFirst.lean ====
/-
  A FIRST step (j = 0) of the Huber kernel's body, run on any whole memrefs: the body reads the two input blocks
  and stores their Huber terms, 8 x 1024 at a time, over the whole accumulator, whatever it held; it leaves the
  inputs and the idle output block as they were. The pieces the accumulator ends with are found by the run.
-/
import proofs.«181023_g6820408066431_feedfinal_520_10_alg».proof.Proof.StepsBits.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The accumulator's pieces after a first step (last store first), with the body's triple. -/
noncomputable def runFirst (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : condFirst i) (hc1 : ¬condLater i) (hc2 : ¬condLast i)
    (x0 : Vec F S256x4096 .f32) (x1 : Vec F S256x4096 .f32) :
    Σ' (L2 : List (View.Piece (Elt F) S1x8x4096 .f32)), { LS : List (View.Piece (Elt F) S256x4096 .f32) //
      ∀ (xi2 : Vec F S1x8x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0_huber_mean i arg2 harg2 arg3 harg3 arg4 harg4 arg5 harg5) K } := by
  refine ⟨[], ?_, fun xi2 E K => ?run⟩
  case run =>
    simp only [cc0_huber_mean_eq_skeleton]; unfold cc0_huber_mean_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Body

end
-- ==== Proof.StepsBits.CaseInner.lean ====
/-
  An INNER step (0 < j < 31) of the Huber kernel's body, run on any whole memrefs: the body reads the two input
  blocks and the accumulator as the step before left it, and stores accumulator + Huber terms, 8 x 1024 at a time,
  over the whole accumulator; it leaves the inputs and the idle output block as they were.
-/
import proofs.«181023_g6820408066431_feedfinal_520_10_alg».proof.Proof.StepsBits.CaseFirst

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The accumulator's pieces after an inner step (last store first), with the body's triple. -/
noncomputable def runInner (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : ¬condFirst i) (hc1 : condLater i) (hc2 : ¬condLast i)
    (x0 : Vec F S256x4096 .f32) (x1 : Vec F S256x4096 .f32) (xs : Vec F S256x4096 .f32) :
    Σ' (L2 : List (View.Piece (Elt F) S1x8x4096 .f32)), { LS : List (View.Piece (Elt F) S256x4096 .f32) //
      ∀ (xi2 : Vec F S1x8x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0_huber_mean i arg2 harg2 arg3 harg3 arg4 harg4 arg5 harg5) K } := by
  refine ⟨[], ?_, fun xi2 E K => ?run⟩
  case run =>
    simp only [cc0_huber_mean_eq_skeleton]; unfold cc0_huber_mean_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Body

end
-- ==== Proof.StepsBits.CaseLast.lean ====
/-
  A LAST step (j = 31) of the Huber kernel's body, run on any whole memrefs: the body first does what an inner
  step does, then reads the accumulator back 8 rows at a time, adds the 32 groups of 8 rows, and stores the 8
  rows of sums over the whole output block, 1024 columns at a time, whatever the block held.
-/
import proofs.«181023_g6820408066431_feedfinal_520_10_alg».proof.Proof.StepsBits.CaseInner

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The output block's and the accumulator's pieces after a last step (last store first), with the body's triple. -/
noncomputable def runLast (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : ¬condFirst i) (hc1 : condLater i) (hc2 : condLast i)
    (x0 : Vec F S256x4096 .f32) (x1 : Vec F S256x4096 .f32) (xs : Vec F S256x4096 .f32) :
    Σ' (L2 : List (View.Piece (Elt F) S1x8x4096 .f32)), { LS : List (View.Piece (Elt F) S256x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0_huber_mean i arg2 harg2 arg3 harg3 arg4 harg4 arg5 harg5) K } := by
  refine ⟨?_, ?_, fun E K => ?run⟩
  case run =>
    simp only [cc0_huber_mean_eq_skeleton]; unfold cc0_huber_mean_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Body

end
-- ==== Proof.StepsBits.Pieces.lean ====
/-
  What each kind of step leaves in the accumulator and in the output block: the pieces its stores wrote, read
  back. A first or inner step's 128 stores of 8 x 1024 tile the 256 x 4096 accumulator; a last step's do too, and
  its 4 stores of 1 x 8 x 1024 tile the 1 x 8 x 4096 output block; so what the buffers hold afterwards does not
  depend on what they held before.
-/
import proofs.«181023_g6820408066431_feedfinal_520_10_alg».proof.Proof.StepsBits.CaseLast

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A first step -/

theorem coverFirst (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : condFirst i) (hc1 : ¬condLater i) (hc2 : ¬condLast i) (x0 : Vec F S256x4096 .f32) (x1 : Vec F S256x4096 .f32) (y : S256x4096.Idx) :
    ∃ pc ∈ (runFirst c i arg2 harg2 arg3 harg3 arg4 harg4 arg5 harg5 hc0 hc1 hc2 x0 x1).2.1, y ∈ pc.1.set :=
  View.cover_of_tiledL (runFirst c i arg2 harg2 arg3 harg3 arg4 harg4 arg5 harg5 hc0 hc1 hc2 x0 x1).2.1 S8x1024.size (by sl_kernel_rfl) y

/-- The accumulator after a first step. -/
def accFirst (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : condFirst i) (hc1 : ¬condLater i) (hc2 : ¬condLast i) (x0 : Vec F S256x4096 .f32) (x1 : Vec F S256x4096 .f32) : Vec F S256x4096 .f32 :=
  VS.read (Elt F) (VS.writes (Elt F) VS.junk (runFirst c i arg2 harg2 arg3 harg3 arg4 harg4 arg5 harg5 hc0 hc1 hc2 x0 x1).2.1)

/-! ## An inner step -/

theorem coverInner (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : ¬condFirst i) (hc1 : condLater i) (hc2 : ¬condLast i) (x0 : Vec F S256x4096 .f32) (x1 : Vec F S256x4096 .f32) (xs : Vec F S256x4096 .f32) (y : S256x4096.Idx) :
    ∃ pc ∈ (runInner c i arg2 harg2 arg3 harg3 arg4 harg4 arg5 harg5 hc0 hc1 hc2 x0 x1 xs).2.1, y ∈ pc.1.set :=
  View.cover_of_tiledL (runInner c i arg2 harg2 arg3 harg3 arg4 harg4 arg5 harg5 hc0 hc1 hc2 x0 x1 xs).2.1 S8x1024.size (by sl_kernel_rfl) y

/-- The accumulator after an inner step that found it at `xs`. -/
def accInner (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : ¬condFirst i) (hc1 : condLater i) (hc2 : ¬condLast i) (x0 : Vec F S256x4096 .f32) (x1 : Vec F S256x4096 .f32) (xs : Vec F S256x4096 .f32) : Vec F S256x4096 .f32 :=
  VS.read (Elt F) (VS.writes (Elt F) VS.junk (runInner c i arg2 harg2 arg3 harg3 arg4 harg4 arg5 harg5 hc0 hc1 hc2 x0 x1 xs).2.1)

/-! ## A last step -/

theorem coverLastAcc (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : ¬condFirst i) (hc1 : condLater i) (hc2 : condLast i) (x0 : Vec F S256x4096 .f32) (x1 : Vec F S256x4096 .f32) (xs : Vec F S256x4096 .f32) (y : S256x4096.Idx) :
    ∃ pc ∈ (runLast c i arg2 harg2 arg3 harg3 arg4 harg4 arg5 harg5 hc0 hc1 hc2 x0 x1 xs).2.1, y ∈ pc.1.set :=
  View.cover_of_tiledL (runLast c i arg2 harg2 arg3 harg3 arg4 harg4 arg5 harg5 hc0 hc1 hc2 x0 x1 xs).2.1 S8x1024.size (by sl_kernel_rfl) y

/-- The accumulator after a last step that found it at `xs`. -/
def accLast (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : ¬condFirst i) (hc1 : condLater i) (hc2 : condLast i) (x0 : Vec F S256x4096 .f32) (x1 : Vec F S256x4096 .f32) (xs : Vec F S256x4096 .f32) : Vec F S256x4096 .f32 :=
  VS.read (Elt F) (VS.writes (Elt F) VS.junk (runLast c i arg2 harg2 arg3 harg3 arg4 harg4 arg5 harg5 hc0 hc1 hc2 x0 x1 xs).2.1)

theorem coverLastOut (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : ¬condFirst i) (hc1 : condLater i) (hc2 : condLast i) (x0 : Vec F S256x4096 .f32) (x1 : Vec F S256x4096 .f32) (xs : Vec F S256x4096 .f32) (y : S1x8x4096.Idx) :
    ∃ pc ∈ (runLast c i arg2 harg2 arg3 harg3 arg4 harg4 arg5 harg5 hc0 hc1 hc2 x0 x1 xs).1, y ∈ pc.1.set :=
  View.cover_of_tiledL (runLast c i arg2 harg2 arg3 harg3 arg4 harg4 arg5 harg5 hc0 hc1 hc2 x0 x1 xs).1 S1x8x1024.size (by sl_kernel_rfl) y

/-- The output block after a last step that found the accumulator at `xs`. -/
def outLast (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : ¬condFirst i) (hc1 : condLater i) (hc2 : condLast i) (x0 : Vec F S256x4096 .f32) (x1 : Vec F S256x4096 .f32) (xs : Vec F S256x4096 .f32) : Vec F S1x8x4096 .f32 :=
  VOut.read (Elt F) (VOut.writes (Elt F) VOut.junk (runLast c i arg2 harg2 arg3 harg3 arg4 harg4 arg5 harg5 hc0 hc1 hc2 x0 x1 xs).1)

end Cert.Kernel.Body

end
-- ==== Proof.StepsBits.Points.lean ====
/-
  What the output block and the accumulator hold after each grid point, by recursion on the point: a first step
  (point = 0 mod 32) fills the accumulator from the point's two input blocks; an inner step adds to what the point
  before left; a last step (point = 31 mod 32) adds likewise and folds the result into the output block. Between two
  points of one half nothing else touches the accumulator, so the region's invariant carries it at these contents.
  Then the pipeline's proof data: the arrays as the region finds them, each input's buffer at its block, the output's
  buffer and the accumulator at the recursion's values.
-/
import proofs.«181023_g6820408066431_feedfinal_520_10_alg».proof.Proof.StepsBits.Pieces

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which kind of step a point is -/

theorem notLater_of (t : Fin cfg0.N) (h0 : t.val % 32 = 0) : ¬condLater (grid0.coords t) :=
  fun h => (condLater_iff t).mp h h0
theorem notLast_of_first (t : Fin cfg0.N) (h0 : t.val % 32 = 0) : ¬condLast (grid0.coords t) :=
  fun h => by have := (condLast_iff t).mp h; omega
theorem notFirst_of (t : Fin cfg0.N) (h0 : ¬t.val % 32 = 0) : ¬condFirst (grid0.coords t) :=
  fun h => h0 ((condFirst_iff t).mp h)
theorem notLast_of (t : Fin cfg0.N) (h1 : ¬t.val % 32 = 31) : ¬condLast (grid0.coords t) :=
  fun h => h1 ((condLast_iff t).mp h)

/-! ## The contents after each point -/

/-- What stands for the output block's contents at a point where the window is idle: nothing reads it. -/
def idleOut : Vec F S1x8x4096 .f32 := VOut.read (Elt F) VOut.junk

/-- The output block and the accumulator after the body at position `n`. -/
def outsAt (c : Dev nD) : (n : ℕ) → n < cfg0.N → Vec F S1x8x4096 .f32 × Vec F S256x4096 .f32
  | 0, hn => (idleOut, accFirst c (grid0.coords ⟨0, hn⟩) (msA ⟨0, hn⟩) (hsA ⟨0, hn⟩) (msB ⟨0, hn⟩) (hsB ⟨0, hn⟩) (msO ⟨0, hn⟩) (hsO ⟨0, hn⟩) scM (Memref.isWhole_whole _) ((condFirst_iff ⟨0, hn⟩).mpr (Nat.zero_mod _)) (notLater_of ⟨0, hn⟩ (Nat.zero_mod _)) (notLast_of_first ⟨0, hn⟩ (Nat.zero_mod _)) (iblk m c 0 ⟨0, hn⟩) (iblk m c 1 ⟨0, hn⟩))
  | n + 1, hn =>
    if h0 : (n + 1) % 32 = 0 then
      (idleOut, accFirst c (grid0.coords ⟨n + 1, hn⟩) (msA ⟨n + 1, hn⟩) (hsA ⟨n + 1, hn⟩) (msB ⟨n + 1, hn⟩) (hsB ⟨n + 1, hn⟩) (msO ⟨n + 1, hn⟩) (hsO ⟨n + 1, hn⟩) scM (Memref.isWhole_whole _) ((condFirst_iff ⟨n + 1, hn⟩).mpr h0) (notLater_of ⟨n + 1, hn⟩ h0) (notLast_of_first ⟨n + 1, hn⟩ h0) (iblk m c 0 ⟨n + 1, hn⟩) (iblk m c 1 ⟨n + 1, hn⟩))
    else
      if h1 : (n + 1) % 32 = 31 then
        (outLast c (grid0.coords ⟨n + 1, hn⟩) (msA ⟨n + 1, hn⟩) (hsA ⟨n + 1, hn⟩) (msB ⟨n + 1, hn⟩) (hsB ⟨n + 1, hn⟩) (msO ⟨n + 1, hn⟩) (hsO ⟨n + 1, hn⟩) scM (Memref.isWhole_whole _) (notFirst_of ⟨n + 1, hn⟩ h0) ((condLater_iff ⟨n + 1, hn⟩).mpr h0) ((condLast_iff ⟨n + 1, hn⟩).mpr h1) (iblk m c 0 ⟨n + 1, hn⟩) (iblk m c 1 ⟨n + 1, hn⟩) (outsAt c n (Nat.lt_of_succ_lt hn)).2,
         accLast c (grid0.coords ⟨n + 1, hn⟩) (msA ⟨n + 1, hn⟩) (hsA ⟨n + 1, hn⟩) (msB ⟨n + 1, hn⟩) (hsB ⟨n + 1, hn⟩) (msO ⟨n + 1, hn⟩) (hsO ⟨n + 1, hn⟩) scM (Memref.isWhole_whole _) (notFirst_of ⟨n + 1, hn⟩ h0) ((condLater_iff ⟨n + 1, hn⟩).mpr h0) ((condLast_iff ⟨n + 1, hn⟩).mpr h1) (iblk m c 0 ⟨n + 1, hn⟩) (iblk m c 1 ⟨n + 1, hn⟩) (outsAt c n (Nat.lt_of_succ_lt hn)).2)
      else
        (idleOut, accInner c (grid0.coords ⟨n + 1, hn⟩) (msA ⟨n + 1, hn⟩) (hsA ⟨n + 1, hn⟩) (msB ⟨n + 1, hn⟩) (hsB ⟨n + 1, hn⟩) (msO ⟨n + 1, hn⟩) (hsO ⟨n + 1, hn⟩) scM (Memref.isWhole_whole _) (notFirst_of ⟨n + 1, hn⟩ h0) ((condLater_iff ⟨n + 1, hn⟩).mpr h0) (notLast_of ⟨n + 1, hn⟩ h1) (iblk m c 0 ⟨n + 1, hn⟩) (iblk m c 1 ⟨n + 1, hn⟩) (outsAt c n (Nat.lt_of_succ_lt hn)).2)

theorem outsAt_first (c : Dev nD) (t : Fin cfg0.N) (h0 : t.val % 32 = 0) :
    outsAt m c t.val t.isLt = (idleOut, accFirst c (grid0.coords t) (msA t) (hsA t) (msB t) (hsB t) (msO t) (hsO t) scM (Memref.isWhole_whole _) ((condFirst_iff t).mpr h0) (notLater_of t h0) (notLast_of_first t h0) (iblk m c 0 t) (iblk m c 1 t)) := by
  obtain ⟨n, hn⟩ := t
  cases n with
  | zero => exact rfl
  | succ n => exact (dif_pos h0).trans rfl

theorem outsAt_inner (c : Dev nD) (t : Fin cfg0.N) (h0 : ¬t.val % 32 = 0) (h1 : ¬t.val % 32 = 31) :
    outsAt m c t.val t.isLt = (idleOut, accInner c (grid0.coords t) (msA t) (hsA t) (msB t) (hsB t) (msO t) (hsO t) scM (Memref.isWhole_whole _) (notFirst_of t h0) ((condLater_iff t).mpr h0) (notLast_of t h1) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 32 = 0) (h1 : t.val % 32 = 31) :
    outsAt m c t.val t.isLt = (outLast c (grid0.coords t) (msA t) (hsA t) (msB t) (hsB t) (msO t) (hsO t) scM (Memref.isWhole_whole _) (notFirst_of t h0) ((condLater_iff t).mpr h0) ((condLast_iff t).mpr h1) (iblk m c 0 t) (iblk m c 1 t) (outsAt m c (t.val - 1) (Nat.lt_of_le_of_lt (Nat.sub_le _ _) t.isLt)).2,
      accLast c (grid0.coords t) (msA t) (hsA t) (msB t) (hsB t) (msO t) (hsO t) scM (Memref.isWhole_whole _) (notFirst_of t h0) ((condLater_iff t).mpr h0) ((condLast_iff t).mpr h1) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant, carrying the accumulator -/

/-- Before the first point: the accumulator at anything. Afterwards: at what the point before left. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out (c : Dev nD) (t : Fin cfg0.N) : (dats m 0 c).after 2 t = (outsAt m c t.val t.isLt).1 := by dsimp only [dats]

/-- Each input's current staging buffer holds its block at every point, fetched there or not. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d

end Cert.Kernel.Body

end
-- ==== Proof.StepsBits.Obligation.lean ====
/-
  The body's obligation at every grid point, and the run. At a point the pipeline hands the body the two input blocks
  (each staging buffer holds its block, fetched at this point or not), the output block's buffer, and the region's
  invariant with the accumulator at what the point before left (at anything before the first point). The point's
  residue mod 32 says which kind of step it is, that step's triple applies, and the accumulator goes back into the
  invariant at this point's contents: its stores tile it, so it reads back as their pieces over anything. The output
  window is idle away from the last steps: its buffer is handed back untouched. The launch then gives the run of the
  whole program, and the run gives the frame: the two argument arrays end as they started.
-/
import proofs.«181023_g6820408066431_feedfinal_520_10_alg».proof.Proof.StepsBits.Points

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (msA t) fullShare ((dats m 0 c).before 0 t d))
    ∗ (∃ d, owns (c : Thread nD τ) (msB t) fullShare ((dats m 0 c).before 1 t d))
    ∗ (∃ d, owns (c : Thread nD τ) (msO t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (msA t) fullShare ((dats m 0 c).after 0 t) from by
    unfold Dat.leavesExact; rw [live_in0 t], after_in0]
  rw [show (dats m 0 c).leavesExact 1 t = owns (c : Thread nD τ) (msB t) fullShare ((dats m 0 c).after 1 t) from by
    unfold Dat.leavesExact; rw [live_in1 t], after_in1]
  by_cases h0 : t.val % 32 = 0
  · -- a first step: the accumulator is overwritten whatever it held
    rw [Dat.leavesExact_idle (dats m 0 c) 2 t (idle_out t (notLast_of_first t h0)) (noFlush_out t (notLast_of_first t h0))]
    rw [outsAt_first m c t h0]
    unfold accFirst; (try dsimp only)
    by_cases hz : t.val = 0
    · rw [PhiS_castSucc m c t, PhiS_zero m c _ _ hz, PhiA_eq]
      iintro ⟨⟨HS0, Hg⟩, Ho, ⟨%d0, H0⟩, ⟨%d1, H1⟩, ⟨%d2, H2⟩⟩
      iapply ((runFirst c (grid0.coords t) _ _ _ _ _ _ _ _ ((condFirst_iff t).mpr h0) (notLater_of t h0) (notLast_of_first t h0) (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (coverFirst c _ _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS0, Hg⟩, Ho, ⟨%d0, H0⟩, ⟨%d1, H1⟩, ⟨%d2, H2⟩⟩
      iapply ((runFirst c (grid0.coords t) _ _ _ _ _ _ _ _ ((condFirst_iff t).mpr h0) (notLater_of t h0) (notLast_of_first t h0) (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (coverFirst c _ _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h1 : t.val % 32 = 31
    · -- a last step: the output block is stored whole
      rw [show (dats m 0 c).leavesExact 2 t = owns (c : Thread nD τ) (msO t) fullShare ((dats m 0 c).after 2 t) from by
        unfold Dat.leavesExact; rw [live_out t ((condLast_iff t).mpr h1)], after_out]
      rw [outsAt_last m c t h0 h1]
      unfold outLast accLast; (try dsimp only)
      rw [PhiS_castSucc m c t, PhiS_pos m c _ _ hz]
      iintro ⟨⟨HS0, Hg⟩, Ho, ⟨%d0, H0⟩, ⟨%d1, H1⟩, ⟨%d2, H2⟩⟩
      iapply ((runLast c (grid0.coords t) _ _ _ _ _ _ _ _ (notFirst_of t h0) ((condLater_iff t).mpr h0) ((condLast_iff t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (coverLastAcc c _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut c _ _ _ _ _ _ _ _ _ _ _ _ _ _ _)
    · -- an inner step
      rw [Dat.leavesExact_idle (dats m 0 c) 2 t (idle_out t (notLast_of t h1)) (noFlush_out t (notLast_of t h1))]
      rw [outsAt_inner m c t h0 h1]
      unfold accInner; (try dsimp only)
      rw [PhiS_castSucc m c t, PhiS_pos m c _ _ hz]
      iintro ⟨⟨HS0, Hg⟩, Ho, ⟨%d0, H0⟩, ⟨%d1, H1⟩, ⟨%d2, H2⟩⟩
      iapply ((runInner c (grid0.coords t) _ _ _ _ _ _ _ _ (notFirst_of t h0) ((condLater_iff t).mpr h0) (notLast_of t h1) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (coverInner c _ _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives it back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
/-- Every weakly fair execution of the program terminates, nothing faulting, with every array of the pipeline at what
    the proof data computes and every other buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.StepsIdeal.Shared.lean ====
/-
  The three kinds of grid step of the Huber kernel's body, and what the steps share.

  The grid is 2 x 32: point t has coordinates (t / 32, t % 32). The body branches on the second coordinate j:
  at j = 0 it writes the block's Huber terms into the row-block accumulator, at j > 0 it adds them to it, and at
  j = 31 it also folds the accumulator's 256 rows into 8 and stores them into the output block. So a point is a
  FIRST step (j = 0), an INNER step (0 < j < 31) or a LAST step (j = 31); the three conditions are decided over
  the 64 points in closed form. The output window is idle and not written back except at the last steps.
  The accumulator is a scratch buffer the kernel keeps from one point to the next.
-/
import proofs.«181023_g6820408066431_feedfinal_520_10_alg».proof.Proof.Gen.KernelIdeal.Frame
import proofs.«181023_g6820408066431_feedfinal_520_10_alg».proof.Proof.Gen.KernelIdeal.Skeleton
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three conditions on the second grid coordinate -/

/-- j = 0, as the body computes it. -/
abbrev condFirst (i : grid0.Coords) : Prop :=
  (Scalar.cmpi .ne (Scalar.extui (Scalar.cmpi .eq (BitVec.ofNat 32 (i 1).val) 0#32)) 0#32) = 1#1
theorem condFirst_iff : ∀ t : Fin cfg0.N, condFirst (grid0.coords t) ↔ t.val % 32 = 0 :=
  (by decide +kernel : ∀ t : Fin grid0.N, condFirst (grid0.coords t) ↔ t.val % 32 = 0)

/-- j > 0 (signed), as the body computes it. -/
abbrev condLater (i : grid0.Coords) : Prop :=
  (Scalar.cmpi .ne (Scalar.extui (Scalar.cmpi .sgt (BitVec.ofNat 32 (i 1).val) 0#32)) 0#32) = 1#1
theorem condLater_iff : ∀ t : Fin cfg0.N, condLater (grid0.coords t) ↔ ¬ t.val % 32 = 0 :=
  (by decide +kernel : ∀ t : Fin grid0.N, condLater (grid0.coords t) ↔ ¬ t.val % 32 = 0)

/-- j = 31, as the body computes it. -/
abbrev condLast (i : grid0.Coords) : Prop := k0_cond3 i = 1#1
theorem condLast_iff : ∀ t : Fin cfg0.N, condLast (grid0.coords t) ↔ t.val % 32 = 31 :=
  (by decide +kernel : ∀ t : Fin grid0.N, condLast (grid0.coords t) ↔ t.val % 32 = 31)

/-! ## Where the windows are idle -/

theorem live_in0 : ∀ t : Fin cfg0.N, cfg0.idle 0 (grid0.coords t) = false := by decide +kernel
theorem live_in1 : ∀ t : Fin cfg0.N, cfg0.idle 1 (grid0.coords t) = false := by decide +kernel
/-- Away from the last steps the output window is idle, -/
theorem idle_out : ∀ t : Fin cfg0.N, ¬condLast (grid0.coords t) → cfg0.idle 2 (grid0.coords t) = true := by decide +kernel
/-- and its block is not written back there. -/
theorem noFlush_out : ∀ t : Fin cfg0.N, ¬condLast (grid0.coords t) → (cfg0.win 2).flush t = false := by decide +kernel
/-- At a last step it is live. -/
theorem live_out : ∀ t : Fin cfg0.N, condLast (grid0.coords t) → cfg0.idle 2 (grid0.coords t) = false := by decide +kernel

/-! ## The memrefs a step is called with -/

/-- One staging buffer of the output window, through which its contents are stated. -/
abbrev VOut : View sig .tc .vmem S1x8x4096 .f32 := (Memref.whole cc0_stg2_0 : Memref sig .tc .vmem S1x8x4096 .f32).view
abbrev msA (t : Fin cfg0.N) : Memref sig .tc .vmem S256x4096 .f32 := win0_0.stage (cfg0.slots t 0)
abbrev hsA (t : Fin cfg0.N) : (msA t).IsWhole := hstage0_0 ((cfg0.slots t 0).cast nbuf0_0)
abbrev msB (t : Fin cfg0.N) : Memref sig .tc .vmem S256x4096 .f32 := win0_1.stage (cfg0.slots t 1)
abbrev hsB (t : Fin cfg0.N) : (msB t).IsWhole := hstage0_1 ((cfg0.slots t 1).cast nbuf0_1)
abbrev msO (t : Fin cfg0.N) : Memref sig .tc .vmem S1x8x4096 .f32 := win0_2.stage (cfg0.slots t 2)
abbrev hsO (t : Fin cfg0.N) : (msO t).IsWhole := hstage0_2 ((cfg0.slots t 2).cast nbuf0_2)
/-- The accumulator: a whole scoped buffer of the kernel's own. -/
abbrev scM : Memref sig .tc .vmem S256x4096 .f32 := Memref.whole cc0_scratch0
abbrev VS : View sig .tc .vmem S256x4096 .f32 := scM.view

/-- The region's invariant with the accumulator as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.StepsIdeal.CaseFirst.lean ====
/-
  A FIRST step (j = 0) of the Huber kernel's body, run on any whole memrefs: the body reads the two input blocks
  and stores their Huber terms, 8 x 1024 at a time, over the whole accumulator, whatever it held; it leaves the
  inputs and the idle output block as they were. The pieces the accumulator ends with are found by the run.
-/
import proofs.«181023_g6820408066431_feedfinal_520_10_alg».proof.Proof.StepsIdeal.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The accumulator's pieces after a first step (last store first), with the body's triple. -/
noncomputable def runFirst (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : condFirst i) (hc1 : ¬condLater i) (hc2 : ¬condLast i)
    (x0 : Vec F S256x4096 .f32) (x1 : Vec F S256x4096 .f32) :
    Σ' (L2 : List (View.Piece (Elt F) S1x8x4096 .f32)), { LS : List (View.Piece (Elt F) S256x4096 .f32) //
      ∀ (xi2 : Vec F S1x8x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0_huber_mean i arg2 harg2 arg3 harg3 arg4 harg4 arg5 harg5) K } := by
  refine ⟨[], ?_, fun xi2 E K => ?run⟩
  case run =>
    simp only [cc0_huber_mean_eq_skeleton]; unfold cc0_huber_mean_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Body

end
-- ==== Proof.StepsIdeal.CaseInner.lean ====
/-
  An INNER step (0 < j < 31) of the Huber kernel's body, run on any whole memrefs: the body reads the two input
  blocks and the accumulator as the step before left it, and stores accumulator + Huber terms, 8 x 1024 at a time,
  over the whole accumulator; it leaves the inputs and the idle output block as they were.
-/
import proofs.«181023_g6820408066431_feedfinal_520_10_alg».proof.Proof.StepsIdeal.CaseFirst

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The accumulator's pieces after an inner step (last store first), with the body's triple. -/
noncomputable def runInner (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : ¬condFirst i) (hc1 : condLater i) (hc2 : ¬condLast i)
    (x0 : Vec F S256x4096 .f32) (x1 : Vec F S256x4096 .f32) (xs : Vec F S256x4096 .f32) :
    Σ' (L2 : List (View.Piece (Elt F) S1x8x4096 .f32)), { LS : List (View.Piece (Elt F) S256x4096 .f32) //
      ∀ (xi2 : Vec F S1x8x4096 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0_huber_mean i arg2 harg2 arg3 harg3 arg4 harg4 arg5 harg5) K } := by
  refine ⟨[], ?_, fun xi2 E K => ?run⟩
  case run =>
    simp only [cc0_huber_mean_eq_skeleton]; unfold cc0_huber_mean_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Body

end
-- ==== Proof.StepsIdeal.CaseLast.lean ====
/-
  A LAST step (j = 31) of the Huber kernel's body, run on any whole memrefs: the body first does what an inner
  step does, then reads the accumulator back 8 rows at a time, adds the 32 groups of 8 rows, and stores the 8
  rows of sums over the whole output block, 1024 columns at a time, whatever the block held.
-/
import proofs.«181023_g6820408066431_feedfinal_520_10_alg».proof.Proof.StepsIdeal.CaseInner

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The output block's and the accumulator's pieces after a last step (last store first), with the body's triple. -/
noncomputable def runLast (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : ¬condFirst i) (hc1 : condLater i) (hc2 : condLast i)
    (x0 : Vec F S256x4096 .f32) (x1 : Vec F S256x4096 .f32) (xs : Vec F S256x4096 .f32) :
    Σ' (L2 : List (View.Piece (Elt F) S1x8x4096 .f32)), { LS : List (View.Piece (Elt F) S256x4096 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0_huber_mean i arg2 harg2 arg3 harg3 arg4 harg4 arg5 harg5) K } := by
  refine ⟨?_, ?_, fun E K => ?run⟩
  case run =>
    simp only [cc0_huber_mean_eq_skeleton]; unfold cc0_huber_mean_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Body

end
-- ==== Proof.StepsIdeal.Pieces.lean ====
/-
  What each kind of step leaves in the accumulator and in the output block: the pieces its stores wrote, read
  back. A first or inner step's 128 stores of 8 x 1024 tile the 256 x 4096 accumulator; a last step's do too, and
  its 4 stores of 1 x 8 x 1024 tile the 1 x 8 x 4096 output block; so what the buffers hold afterwards does not
  depend on what they held before.
-/
import proofs.«181023_g6820408066431_feedfinal_520_10_alg».proof.Proof.StepsIdeal.CaseLast

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A first step -/

theorem coverFirst (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : condFirst i) (hc1 : ¬condLater i) (hc2 : ¬condLast i) (x0 : Vec F S256x4096 .f32) (x1 : Vec F S256x4096 .f32) (y : S256x4096.Idx) :
    ∃ pc ∈ (runFirst c i arg2 harg2 arg3 harg3 arg4 harg4 arg5 harg5 hc0 hc1 hc2 x0 x1).2.1, y ∈ pc.1.set :=
  View.cover_of_tiledL (runFirst c i arg2 harg2 arg3 harg3 arg4 harg4 arg5 harg5 hc0 hc1 hc2 x0 x1).2.1 S8x1024.size (by sl_kernel_rfl) y

/-- The accumulator after a first step. -/
def accFirst (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : condFirst i) (hc1 : ¬condLater i) (hc2 : ¬condLast i) (x0 : Vec F S256x4096 .f32) (x1 : Vec F S256x4096 .f32) : Vec F S256x4096 .f32 :=
  VS.read (Elt F) (VS.writes (Elt F) VS.junk (runFirst c i arg2 harg2 arg3 harg3 arg4 harg4 arg5 harg5 hc0 hc1 hc2 x0 x1).2.1)

/-! ## An inner step -/

theorem coverInner (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : ¬condFirst i) (hc1 : condLater i) (hc2 : ¬condLast i) (x0 : Vec F S256x4096 .f32) (x1 : Vec F S256x4096 .f32) (xs : Vec F S256x4096 .f32) (y : S256x4096.Idx) :
    ∃ pc ∈ (runInner c i arg2 harg2 arg3 harg3 arg4 harg4 arg5 harg5 hc0 hc1 hc2 x0 x1 xs).2.1, y ∈ pc.1.set :=
  View.cover_of_tiledL (runInner c i arg2 harg2 arg3 harg3 arg4 harg4 arg5 harg5 hc0 hc1 hc2 x0 x1 xs).2.1 S8x1024.size (by sl_kernel_rfl) y

/-- The accumulator after an inner step that found it at `xs`. -/
def accInner (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : ¬condFirst i) (hc1 : condLater i) (hc2 : ¬condLast i) (x0 : Vec F S256x4096 .f32) (x1 : Vec F S256x4096 .f32) (xs : Vec F S256x4096 .f32) : Vec F S256x4096 .f32 :=
  VS.read (Elt F) (VS.writes (Elt F) VS.junk (runInner c i arg2 harg2 arg3 harg3 arg4 harg4 arg5 harg5 hc0 hc1 hc2 x0 x1 xs).2.1)

/-! ## A last step -/

theorem coverLastAcc (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : ¬condFirst i) (hc1 : condLater i) (hc2 : condLast i) (x0 : Vec F S256x4096 .f32) (x1 : Vec F S256x4096 .f32) (xs : Vec F S256x4096 .f32) (y : S256x4096.Idx) :
    ∃ pc ∈ (runLast c i arg2 harg2 arg3 harg3 arg4 harg4 arg5 harg5 hc0 hc1 hc2 x0 x1 xs).2.1, y ∈ pc.1.set :=
  View.cover_of_tiledL (runLast c i arg2 harg2 arg3 harg3 arg4 harg4 arg5 harg5 hc0 hc1 hc2 x0 x1 xs).2.1 S8x1024.size (by sl_kernel_rfl) y

/-- The accumulator after a last step that found it at `xs`. -/
def accLast (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : ¬condFirst i) (hc1 : condLater i) (hc2 : condLast i) (x0 : Vec F S256x4096 .f32) (x1 : Vec F S256x4096 .f32) (xs : Vec F S256x4096 .f32) : Vec F S256x4096 .f32 :=
  VS.read (Elt F) (VS.writes (Elt F) VS.junk (runLast c i arg2 harg2 arg3 harg3 arg4 harg4 arg5 harg5 hc0 hc1 hc2 x0 x1 xs).2.1)

theorem coverLastOut (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : ¬condFirst i) (hc1 : condLater i) (hc2 : condLast i) (x0 : Vec F S256x4096 .f32) (x1 : Vec F S256x4096 .f32) (xs : Vec F S256x4096 .f32) (y : S1x8x4096.Idx) :
    ∃ pc ∈ (runLast c i arg2 harg2 arg3 harg3 arg4 harg4 arg5 harg5 hc0 hc1 hc2 x0 x1 xs).1, y ∈ pc.1.set :=
  View.cover_of_tiledL (runLast c i arg2 harg2 arg3 harg3 arg4 harg4 arg5 harg5 hc0 hc1 hc2 x0 x1 xs).1 S1x8x1024.size (by sl_kernel_rfl) y

/-- The output block after a last step that found the accumulator at `xs`. -/
def outLast (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : ¬condFirst i) (hc1 : condLater i) (hc2 : condLast i) (x0 : Vec F S256x4096 .f32) (x1 : Vec F S256x4096 .f32) (xs : Vec F S256x4096 .f32) : Vec F S1x8x4096 .f32 :=
  VOut.read (Elt F) (VOut.writes (Elt F) VOut.junk (runLast c i arg2 harg2 arg3 harg3 arg4 harg4 arg5 harg5 hc0 hc1 hc2 x0 x1 xs).1)

end Cert.KernelIdeal.Body

end
-- ==== Proof.StepsIdeal.Points.lean ====
/-
  What the output block and the accumulator hold after each grid point, by recursion on the point: a first step
  (point = 0 mod 32) fills the accumulator from the point's two input blocks; an inner step adds to what the point
  before left; a last step (point = 31 mod 32) adds likewise and folds the result into the output block. Between two
  points of one half nothing else touches the accumulator, so the region's invariant carries it at these contents.
  Then the pipeline's proof data: the arrays as the region finds them, each input's buffer at its block, the output's
  buffer and the accumulator at the recursion's values.
-/
import proofs.«181023_g6820408066431_feedfinal_520_10_alg».proof.Proof.StepsIdeal.Pieces

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which kind of step a point is -/

theorem notLater_of (t : Fin cfg0.N) (h0 : t.val % 32 = 0) : ¬condLater (grid0.coords t) :=
  fun h => (condLater_iff t).mp h h0
theorem notLast_of_first (t : Fin cfg0.N) (h0 : t.val % 32 = 0) : ¬condLast (grid0.coords t) :=
  fun h => by have := (condLast_iff t).mp h; omega
theorem notFirst_of (t : Fin cfg0.N) (h0 : ¬t.val % 32 = 0) : ¬condFirst (grid0.coords t) :=
  fun h => h0 ((condFirst_iff t).mp h)
theorem notLast_of (t : Fin cfg0.N) (h1 : ¬t.val % 32 = 31) : ¬condLast (grid0.coords t) :=
  fun h => h1 ((condLast_iff t).mp h)

/-! ## The contents after each point -/

/-- What stands for the output block's contents at a point where the window is idle: nothing reads it. -/
def idleOut : Vec F S1x8x4096 .f32 := VOut.read (Elt F) VOut.junk

/-- The output block and the accumulator after the body at position `n`. -/
def outsAt (c : Dev nD) : (n : ℕ) → n < cfg0.N → Vec F S1x8x4096 .f32 × Vec F S256x4096 .f32
  | 0, hn => (idleOut, accFirst c (grid0.coords ⟨0, hn⟩) (msA ⟨0, hn⟩) (hsA ⟨0, hn⟩) (msB ⟨0, hn⟩) (hsB ⟨0, hn⟩) (msO ⟨0, hn⟩) (hsO ⟨0, hn⟩) scM (Memref.isWhole_whole _) ((condFirst_iff ⟨0, hn⟩).mpr (Nat.zero_mod _)) (notLater_of ⟨0, hn⟩ (Nat.zero_mod _)) (notLast_of_first ⟨0, hn⟩ (Nat.zero_mod _)) (iblk m c 0 ⟨0, hn⟩) (iblk m c 1 ⟨0, hn⟩))
  | n + 1, hn =>
    if h0 : (n + 1) % 32 = 0 then
      (idleOut, accFirst c (grid0.coords ⟨n + 1, hn⟩) (msA ⟨n + 1, hn⟩) (hsA ⟨n + 1, hn⟩) (msB ⟨n + 1, hn⟩) (hsB ⟨n + 1, hn⟩) (msO ⟨n + 1, hn⟩) (hsO ⟨n + 1, hn⟩) scM (Memref.isWhole_whole _) ((condFirst_iff ⟨n + 1, hn⟩).mpr h0) (notLater_of ⟨n + 1, hn⟩ h0) (notLast_of_first ⟨n + 1, hn⟩ h0) (iblk m c 0 ⟨n + 1, hn⟩) (iblk m c 1 ⟨n + 1, hn⟩))
    else
      if h1 : (n + 1) % 32 = 31 then
        (outLast c (grid0.coords ⟨n + 1, hn⟩) (msA ⟨n + 1, hn⟩) (hsA ⟨n + 1, hn⟩) (msB ⟨n + 1, hn⟩) (hsB ⟨n + 1, hn⟩) (msO ⟨n + 1, hn⟩) (hsO ⟨n + 1, hn⟩) scM (Memref.isWhole_whole _) (notFirst_of ⟨n + 1, hn⟩ h0) ((condLater_iff ⟨n + 1, hn⟩).mpr h0) ((condLast_iff ⟨n + 1, hn⟩).mpr h1) (iblk m c 0 ⟨n + 1, hn⟩) (iblk m c 1 ⟨n + 1, hn⟩) (outsAt c n (Nat.lt_of_succ_lt hn)).2,
         accLast c (grid0.coords ⟨n + 1, hn⟩) (msA ⟨n + 1, hn⟩) (hsA ⟨n + 1, hn⟩) (msB ⟨n + 1, hn⟩) (hsB ⟨n + 1, hn⟩) (msO ⟨n + 1, hn⟩) (hsO ⟨n + 1, hn⟩) scM (Memref.isWhole_whole _) (notFirst_of ⟨n + 1, hn⟩ h0) ((condLater_iff ⟨n + 1, hn⟩).mpr h0) ((condLast_iff ⟨n + 1, hn⟩).mpr h1) (iblk m c 0 ⟨n + 1, hn⟩) (iblk m c 1 ⟨n + 1, hn⟩) (outsAt c n (Nat.lt_of_succ_lt hn)).2)
      else
        (idleOut, accInner c (grid0.coords ⟨n + 1, hn⟩) (msA ⟨n + 1, hn⟩) (hsA ⟨n + 1, hn⟩) (msB ⟨n + 1, hn⟩) (hsB ⟨n + 1, hn⟩) (msO ⟨n + 1, hn⟩) (hsO ⟨n + 1, hn⟩) scM (Memref.isWhole_whole _) (notFirst_of ⟨n + 1, hn⟩ h0) ((condLater_iff ⟨n + 1, hn⟩).mpr h0) (notLast_of ⟨n + 1, hn⟩ h1) (iblk m c 0 ⟨n + 1, hn⟩) (iblk m c 1 ⟨n + 1, hn⟩) (outsAt c n (Nat.lt_of_succ_lt hn)).2)

theorem outsAt_first (c : Dev nD) (t : Fin cfg0.N) (h0 : t.val % 32 = 0) :
    outsAt m c t.val t.isLt = (idleOut, accFirst c (grid0.coords t) (msA t) (hsA t) (msB t) (hsB t) (msO t) (hsO t) scM (Memref.isWhole_whole _) ((condFirst_iff t).mpr h0) (notLater_of t h0) (notLast_of_first t h0) (iblk m c 0 t) (iblk m c 1 t)) := by
  obtain ⟨n, hn⟩ := t
  cases n with
  | zero => exact rfl
  | succ n => exact (dif_pos h0).trans rfl

theorem outsAt_inner (c : Dev nD) (t : Fin cfg0.N) (h0 : ¬t.val % 32 = 0) (h1 : ¬t.val % 32 = 31) :
    outsAt m c t.val t.isLt = (idleOut, accInner c (grid0.coords t) (msA t) (hsA t) (msB t) (hsB t) (msO t) (hsO t) scM (Memref.isWhole_whole _) (notFirst_of t h0) ((condLater_iff t).mpr h0) (notLast_of t h1) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_last (c : Dev nD) (t : Fin cfg0.N) (h0 : ¬t.val % 32 = 0) (h1 : t.val % 32 = 31) :
    outsAt m c t.val t.isLt = (outLast c (grid0.coords t) (msA t) (hsA t) (msB t) (hsB t) (msO t) (hsO t) scM (Memref.isWhole_whole _) (notFirst_of t h0) ((condLater_iff t).mpr h0) ((condLast_iff t).mpr h1) (iblk m c 0 t) (iblk m c 1 t) (outsAt m c (t.val - 1) (Nat.lt_of_le_of_lt (Nat.sub_le _ _) t.isLt)).2,
      accLast c (grid0.coords t) (msA t) (hsA t) (msB t) (hsB t) (msO t) (hsO t) scM (Memref.isWhole_whole _) (notFirst_of t h0) ((condLater_iff t).mpr h0) ((condLast_iff t).mpr h1) (iblk m c 0 t) (iblk m c 1 t) (outsAt m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant, carrying the accumulator -/

/-- Before the first point: the accumulator at anything. Afterwards: at what the point before left. -/
def PhiS (c : Dev nD) : (n : ℕ) → n ≤ cfg0.N → sProp 𝕄
  | 0, _ => Pipeline.ΦA spec0 c
  | n + 1, hn => iprop(iprop(owns (c : Thread nD τ) scM fullShare ((outsAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare ((outsAt m c n hn).2)) ∗ (∃ r, prngReg c r)) := rfl

theorem PhiS_pos (c : Dev nD) (n : ℕ) (h : n ≤ cfg0.N) (hz : n ≠ 0) :
    PhiS m c n h = iprop(iprop(owns (c : Thread nD τ) scM fullShare ((outsAt m c (n - 1) (by omega)).2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_out (c : Dev nD) (t : Fin cfg0.N) : (dats m 0 c).after 2 t = (outsAt m c t.val t.isLt).1 := by dsimp only [dats]

/-- Each input's current staging buffer holds its block at every point, fetched there or not. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d

end Cert.KernelIdeal.Body

end
-- ==== Proof.StepsIdeal.Obligation.lean ====
/-
  The body's obligation at every grid point, and the run. At a point the pipeline hands the body the two input blocks
  (each staging buffer holds its block, fetched at this point or not), the output block's buffer, and the region's
  invariant with the accumulator at what the point before left (at anything before the first point). The point's
  residue mod 32 says which kind of step it is, that step's triple applies, and the accumulator goes back into the
  invariant at this point's contents: its stores tile it, so it reads back as their pieces over anything. The output
  window is idle away from the last steps: its buffer is handed back untouched. The launch then gives the run of the
  whole program, and the run gives the frame: the two argument arrays end as they started.
-/
import proofs.«181023_g6820408066431_feedfinal_520_10_alg».proof.Proof.StepsIdeal.Points

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (msA t) fullShare ((dats m 0 c).before 0 t d))
    ∗ (∃ d, owns (c : Thread nD τ) (msB t) fullShare ((dats m 0 c).before 1 t d))
    ∗ (∃ d, owns (c : Thread nD τ) (msO t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (msA t) fullShare ((dats m 0 c).after 0 t) from by
    unfold Dat.leavesExact; rw [live_in0 t], after_in0]
  rw [show (dats m 0 c).leavesExact 1 t = owns (c : Thread nD τ) (msB t) fullShare ((dats m 0 c).after 1 t) from by
    unfold Dat.leavesExact; rw [live_in1 t], after_in1]
  by_cases h0 : t.val % 32 = 0
  · -- a first step: the accumulator is overwritten whatever it held
    rw [Dat.leavesExact_idle (dats m 0 c) 2 t (idle_out t (notLast_of_first t h0)) (noFlush_out t (notLast_of_first t h0))]
    rw [outsAt_first m c t h0]
    unfold accFirst; (try dsimp only)
    by_cases hz : t.val = 0
    · rw [PhiS_castSucc m c t, PhiS_zero m c _ _ hz, PhiA_eq]
      iintro ⟨⟨HS0, Hg⟩, Ho, ⟨%d0, H0⟩, ⟨%d1, H1⟩, ⟨%d2, H2⟩⟩
      iapply ((runFirst c (grid0.coords t) _ _ _ _ _ _ _ _ ((condFirst_iff t).mpr h0) (notLater_of t h0) (notLast_of_first t h0) (iblk m c 0 t) (iblk m c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (coverFirst c _ _ _ _ _ _ _ _ _ _ _ _ _ _)
        iexact Hg
      isplitl [Ho]; · iexact Ho
      isplitl [H0]; · iexact H0
      isplitl [H1]; · iexact H1
      iexists _; iexact H2
    · rw [PhiS_castSucc m c t, PhiS_pos m c _ _ hz]
      iintro ⟨⟨HS0, Hg⟩, Ho, ⟨%d0, H0⟩, ⟨%d1, H1⟩, ⟨%d2, H2⟩⟩
      iapply ((runFirst c (grid0.coords t) _ _ _ _ _ _ _ _ ((condFirst_iff t).mpr h0) (notLater_of t h0) (notLast_of_first t h0) (iblk m c 0 t) (iblk m c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (coverFirst c _ _ _ _ _ _ _ _ _ _ _ _ _ _)
        iexact Hg
      isplitl [Ho]; · iexact Ho
      isplitl [H0]; · iexact H0
      isplitl [H1]; · iexact H1
      iexists _; iexact H2
  · have hz : t.val ≠ 0 := fun h => h0 (by rw [h])
    by_cases h1 : t.val % 32 = 31
    · -- a last step: the output block is stored whole
      rw [show (dats m 0 c).leavesExact 2 t = owns (c : Thread nD τ) (msO t) fullShare ((dats m 0 c).after 2 t) from by
        unfold Dat.leavesExact; rw [live_out t ((condLast_iff t).mpr h1)], after_out]
      rw [outsAt_last m c t h0 h1]
      unfold outLast accLast; (try dsimp only)
      rw [PhiS_castSucc m c t, PhiS_pos m c _ _ hz]
      iintro ⟨⟨HS0, Hg⟩, Ho, ⟨%d0, H0⟩, ⟨%d1, H1⟩, ⟨%d2, H2⟩⟩
      iapply ((runLast c (grid0.coords t) _ _ _ _ _ _ _ _ (notFirst_of t h0) ((condLater_iff t).mpr h0) ((condLast_iff t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (coverLastAcc c _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut c _ _ _ _ _ _ _ _ _ _ _ _ _ _ _)
    · -- an inner step
      rw [Dat.leavesExact_idle (dats m 0 c) 2 t (idle_out t (notLast_of t h1)) (noFlush_out t (notLast_of t h1))]
      rw [outsAt_inner m c t h0 h1]
      unfold accInner; (try dsimp only)
      rw [PhiS_castSucc m c t, PhiS_pos m c _ _ hz]
      iintro ⟨⟨HS0, Hg⟩, Ho, ⟨%d0, H0⟩, ⟨%d1, H1⟩, ⟨%d2, H2⟩⟩
      iapply ((runInner c (grid0.coords t) _ _ _ _ _ _ _ _ (notFirst_of t h0) ((condLater_iff t).mpr h0) (notLast_of t h1) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (coverInner c _ _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives it back: the accumulator's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
/-- Every weakly fair execution of the program terminates, nothing faulting, with every array of the pipeline at what
    the proof data computes and every other buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.HuberSpec.lean ====
/-
  The Huber term of a difference in the two spellings the two programs use, over the extended reals, and the
  row arithmetic of the kernel's blocks. With d = a - b and |d| = max d (-d):

    the clamped spelling   m * (|d| - 1/2 * m)  with  m = min |d| 1,
    the branching spelling (1/2 * d) * d  when |d| <= 1,  and  1 * (|d| - 1/2)  otherwise.

  For real a and b the two agree: below the knee m = |d| and |d| * (|d| - |d|/2) = d^2/2, above it m = 1.
  The float words stay as written (1.0, 0.5, 0.0, 2^-26, 2^26); only the laws that join the two sides read them.

  The kernel walks the 16384 rows in 2 halves of 32 blocks of 256 rows, and folds each block's 256 rows
  into 8 by adding the 32 groups of 8 consecutive rows: row (i, j, t, s) is ((i * 32 + j) * 256) + 8 * t + s.
-/
import Idealize.ShloMosaic.PureOps.Ideal
import Idealize.ShloMosaic.Lib.ValueIdx

noncomputable section

namespace Cert.Huber

open Idealize.ShloMosaic Idealize.ShloMosaic.ValueIdx

/-- The words the programs spell. -/
abbrev wOne : EReal := Ideal.ofBits .f32 0x3F800000#32
abbrev wHalf : EReal := Ideal.ofBits .f32 0x3F000000#32
abbrev wZero : EReal := Ideal.ofBits .f32 0x00000000#32
/-- 2^-26, the factor the kernel's program multiplies the total by. -/
abbrev wScale : EReal := Ideal.ofBits .f32 0x32800000#32
/-- 2^26 = 16384 * 4096, the count the reference divides the total by. -/
abbrev wCount : EReal := Ideal.ofBits .f32 0x4C800000#32

/-- The clamped spelling of the Huber term of a - b. -/
def hubK (a b : EReal) : EReal :=
  min (max (a - b) (-(a - b))) wOne * (max (a - b) (-(a - b)) - wHalf * min (max (a - b) (-(a - b))) wOne)

/-- Row (i, j, t, s) of the 16384: half i, block j of the half, group t of the block, row s of the group. -/
def rowOf (i : Fin 2) (j : Fin 32) (t : Fin 32) (s : Fin 8) : Fin 16384 :=
  ⟨(i.val * 32 + j.val) * 256 + 8 * t.val + s.val, by omega⟩

/-- What the kernel's region leaves at (i, s, c) of its [2, 8, 4096] result, as a function of the two [16384, 4096]
    arguments: over the 32 groups t of 8 rows, the sum over the half's 32 blocks j of the clamped Huber term at
    row (i, j, t, s), column c. -/
def partialK (a b : (⟨2, ![16384, 4096]⟩ : Shape).Idx → EReal) (q : (⟨3, ![2, 8, 4096]⟩ : Shape).Idx) : EReal :=
  ∑ t : Fin 32, ∑ j : Fin 32, hubK (a (ix2 (rowOf (q 0) j t (q 1)) (q 2))) (b (ix2 (rowOf (q 0) j t (q 1)) (q 2)))

/-- The kernel's program's result: the total of the partial sums, from the zero word, times 2^-26. -/
def totalK (a b : (⟨2, ![16384, 4096]⟩ : Shape).Idx → EReal) : EReal :=
  (wZero + ∑ q : (⟨3, ![2, 8, 4096]⟩ : Shape).Idx, partialK a b q) * wScale

end Cert.Huber

end
-- ==== Proof.HuberAccum.lean ====
/-
  The accumulator of the Huber kernel as a recursion on the grid point, over the extended reals, and its fold.

  Point n of the 64 works on block n of 256 rows: rows n * 256 .. n * 256 + 255 of the two arguments. At a point
  that is 0 mod 32 the accumulator becomes the block's Huber terms; at every other point the block's terms are added
  to it. So after point 32 i + j it holds, at (r, c), the sum over j' <= j of the Huber term at row
  (32 i + j') * 256 + r, column c. Folding its 256 rows into 8 by adding the 32 groups of 8 consecutive rows, after the
  last point of half i, gives the kernel's partial sum at (i, s, c): row 8 t + s of block 32 i + j is row (i, j, t, s).
-/
import proofs.«181023_g6820408066431_feedfinal_520_10_alg».proof.Proof.HuberSpec

noncomputable section

namespace Cert.Huber

open Idealize.ShloMosaic Idealize.ShloMosaic.ValueIdx

/-- Row s of group t of a block of 256 rows. -/
def grp (t : Fin 32) (s : Fin 8) : Fin 256 := ⟨8 * t.val + s.val, by omega⟩

/-- Row r of block n, among the 16384 rows (total in n: the blocks are n < 64). -/
def rowN (n : ℕ) (r : Fin 256) : Fin 16384 := ⟨(n * 256 + r.val) % 16384, Nat.mod_lt _ (by norm_num)⟩

/-- The clamped Huber terms of block n, as a 256 x 4096 array. -/
def blockTerm (a b : (⟨2, ![16384, 4096]⟩ : Shape).Idx → EReal) (n : ℕ) (y : (⟨2, ![256, 4096]⟩ : Shape).Idx) : EReal :=
  hubK (a (ix2 (rowN n (y 0)) (y 1))) (b (ix2 (rowN n (y 0)) (y 1)))

/-- The accumulator after point n. -/
def accN (a b : (⟨2, ![16384, 4096]⟩ : Shape).Idx → EReal) : ℕ → (⟨2, ![256, 4096]⟩ : Shape).Idx → EReal
  | 0 => blockTerm a b 0
  | n + 1 => if (n + 1) % 32 = 0 then blockTerm a b (n + 1) else fun y => accN a b n y + blockTerm a b (n + 1) y

theorem accN_first (a b : (⟨2, ![16384, 4096]⟩ : Shape).Idx → EReal) (n : ℕ) (h : n % 32 = 0) :
    accN a b n = blockTerm a b n := by
  cases n with
  | zero => rfl
  | succ n => simp only [accN, if_pos h]

theorem accN_later (a b : (⟨2, ![16384, 4096]⟩ : Shape).Idx → EReal) (n : ℕ) (h : ¬n % 32 = 0) :
    accN a b n = fun y => accN a b (n - 1) y + blockTerm a b n y := by
  cases n with
  | zero => exact absurd (Nat.zero_mod _) h
  | succ n => simp only [accN, if_neg h, Nat.add_sub_cancel]

/-- Row 8 t + s of block 32 i + j is row (i, j, t, s): the row number is below 16384, so the remainder is itself. -/
theorem rowN_grp (i : Fin 2) (j : Fin 32) (t : Fin 32) (s : Fin 8) :
    rowN (i.val * 32 + j.val) (grp t s) = rowOf i j t s := by
  apply Fin.ext
  simp only [rowN, grp, rowOf]
  omega

/-- The block's term at (r, c), by coordinates. -/
theorem blockTerm_ix2 (a b : (⟨2, ![16384, 4096]⟩ : Shape).Idx → EReal) (n : ℕ) (r : Fin 256) (cc : Fin 4096) :
    blockTerm a b n (ix2 r cc) = hubK (a (ix2 (rowN n r) cc)) (b (ix2 (rowN n r) cc)) := rfl

/-- After point 32 i + j, j <= 31, the accumulator is the sum of the terms of blocks 32 i .. 32 i + j. -/
theorem accN_range (a b : (⟨2, ![16384, 4096]⟩ : Shape).Idx → EReal) (i : Fin 2) (j : ℕ) (hj : j ≤ 31)
    (y : (⟨2, ![256, 4096]⟩ : Shape).Idx) :
    accN a b (i.val * 32 + j) y = ∑ j' ∈ Finset.range (j + 1), blockTerm a b (i.val * 32 + j') y := by
  induction j with
  | zero =>
    rw [accN_first a b _ (by omega)]
    simp
  | succ j ih =>
    rw [accN_later a b _ (by omega), Finset.sum_range_succ]
    have h1 : i.val * 32 + (j + 1) - 1 = i.val * 32 + j := by omega
    simp only [h1]
    rw [ih (by omega)]

/-- The fold of the accumulator after the last point of half i is the kernel's partial sum. -/
theorem fold_accN (a b : (⟨2, ![16384, 4096]⟩ : Shape).Idx → EReal) (i : Fin 2) (s : Fin 8) (cc : Fin 4096) :
    ∑ t : Fin 32, accN a b (i.val * 32 + 31) (ix2 (grp t s) cc) = partialK a b (ix3 i s cc) := by
  unfold partialK
  refine Finset.sum_congr rfl fun t _ => ?_
  rw [accN_range a b i 31 (le_refl _), Finset.sum_range]
  refine Finset.sum_congr rfl fun j _ => ?_
  rw [blockTerm_ix2, rowN_grp]

end Cert.Huber

end
-- ==== Proof.ValueIdeal.PieceValues.lean ====
/-
  What each kind of step leaves, entry by entry, at the extended reals. Every store of the body writes an 8 x 1024
  tile whose value at an entry is a function of the two input blocks (and of the accumulator as found) AT THAT ENTRY:
  the clamped Huber term of the two inputs there, on a first step; the accumulator plus that term, on an inner or last
  step. The tiles cover the accumulator, so afterwards it holds that function everywhere. On a last step each of the 4
  stores into the output block writes, at (0, s, c), the sum over the 32 groups t of the new accumulator at row 8 t + s.
-/
import proofs.«181023_g6820408066431_feedfinal_520_10_alg».proof.Proof.StepsIdeal.Pieces
import proofs.«181023_g6820408066431_feedfinal_520_10_alg».proof.Proof.HuberAccum
import Idealize.ShloMosaic.Lib.Pipeline.Value

set_option maxRecDepth 16384

noncomputable section

namespace Cert.KernelIdeal.Body

open Cert.KernelIdeal Cert.KernelIdeal.Gen Cert.Huber
open Idealize.ShloMosaic Idealize.ShloMosaic.TcCoe Idealize.ShloMosaic.ValueIdx

/-- The first step's arithmetic on two tiles loaded through one 8 x 1024 rectangle, at an entry: the clamped Huber
    term of the two arrays at the entry the rectangle names. -/
theorem pay_first (arg2 : Memref sig .tc .vmem S256x4096 .f32) (harg2 : arg2.IsWhole) (arg3 : Memref sig .tc .vmem S256x4096 .f32) (harg3 : arg3.IsWhole)
    (x0 x1 : Vec Ideal S256x4096 .f32) (off : Fin 2 → ℕ) (inb : ∀ a, off a + S8x1024.size a ≤ S256x4096.size a) (x : S8x1024.Idx) :
    k0_pay1 (F := Ideal)
        (View.readAt (Elt Ideal) arg2.view (Rect.unit (s := S256x4096) off S8x1024.size inb).toLoadRect (harg2.unread x0))
        (View.readAt (Elt Ideal) arg3.view (Rect.unit (s := S256x4096) off S8x1024.size inb).toLoadRect (harg3.unread x1)) x
      = hubK (x0 ((Rect.unit (s := S256x4096) off S8x1024.size inb).emb x)) (x1 ((Rect.unit (s := S256x4096) off S8x1024.size inb).emb x)) := by
  unfold k0_pay1
  simp only [shapeCast_self, View.readAt_eq_ld, harg2.read_unread, harg3.read_unread]
  rfl

theorem accFirst_apply (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : condFirst i) (hc1 : ¬condLater i) (hc2 : ¬condLast i)
    (x0 x1 : Vec Ideal S256x4096 .f32) (y : S256x4096.Idx) :
    accFirst (F := Ideal) c i arg2 harg2 arg3 harg3 arg4 harg4 arg5 harg5 hc0 hc1 hc2 x0 x1 y = hubK (x0 y) (x1 y) := by
  unfold accFirst
  rw [View.read_writes_eq_canon _ _ _ (coverFirst c i arg2 harg2 arg3 harg3 arg4 harg4 arg5 harg5 hc0 hc1 hc2 x0 x1)]
  refine View.canon_apply_of_pieces (fun y => hubK (x0 y) (x1 y)) _ ?_ y
    (coverFirst c i arg2 harg2 arg3 harg3 arg4 harg4 arg5 harg5 hc0 hc1 hc2 x0 x1 y)
  unfold runFirst
  dsimp only
  repeat' (first
    | exact fun _ h => absurd h List.not_mem_nil
    | refine List.forall_mem_cons.2 ⟨fun x => pay_first arg2 harg2 arg3 harg3 x0 x1 _ _ x, ?_⟩
    | fail "piece")

/-- A later step's arithmetic on the two input tiles and the accumulator's tile, all loaded through one 8 x 1024
    rectangle, at an entry: the accumulator there plus the clamped Huber term of the two arrays there. -/
theorem pay_later (arg2 : Memref sig .tc .vmem S256x4096 .f32) (harg2 : arg2.IsWhole) (arg3 : Memref sig .tc .vmem S256x4096 .f32) (harg3 : arg3.IsWhole)
    (arg5 : Memref sig .tc .vmem S256x4096 .f32) (harg5 : arg5.IsWhole)
    (x0 x1 xs : Vec Ideal S256x4096 .f32) (off : Fin 2 → ℕ) (inb : ∀ a, off a + S8x1024.size a ≤ S256x4096.size a) (x : S8x1024.Idx) :
    k0_pay3 (F := Ideal)
        (View.readAt (Elt Ideal) arg2.view (Rect.unit (s := S256x4096) off S8x1024.size inb).toLoadRect (harg2.unread x0))
        (View.readAt (Elt Ideal) arg3.view (Rect.unit (s := S256x4096) off S8x1024.size inb).toLoadRect (harg3.unread x1))
        (View.readAt (Elt Ideal) arg5.view (Rect.unit (s := S256x4096) off S8x1024.size inb).toLoadRect (harg5.unread xs)) x
      = xs ((Rect.unit (s := S256x4096) off S8x1024.size inb).emb x)
        + hubK (x0 ((Rect.unit (s := S256x4096) off S8x1024.size inb).emb x)) (x1 ((Rect.unit (s := S256x4096) off S8x1024.size inb).emb x)) := by
  unfold k0_pay3
  simp only [shapeCast_self, View.readAt_eq_ld, harg2.read_unread, harg3.read_unread, harg5.read_unread]
  rfl

theorem accInner_apply (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : ¬condFirst i) (hc1 : condLater i) (hc2 : ¬condLast i)
    (x0 x1 xs : Vec Ideal S256x4096 .f32) (y : S256x4096.Idx) :
    accInner (F := Ideal) c i arg2 harg2 arg3 harg3 arg4 harg4 arg5 harg5 hc0 hc1 hc2 x0 x1 xs y = xs y + hubK (x0 y) (x1 y) := by
  unfold accInner
  rw [View.read_writes_eq_canon _ _ _ (coverInner c i arg2 harg2 arg3 harg3 arg4 harg4 arg5 harg5 hc0 hc1 hc2 x0 x1 xs)]
  refine View.canon_apply_of_pieces (fun y => xs y + hubK (x0 y) (x1 y)) _ ?_ y
    (coverInner c i arg2 harg2 arg3 harg3 arg4 harg4 arg5 harg5 hc0 hc1 hc2 x0 x1 xs y)
  unfold runInner
  dsimp only
  repeat' (first
    | exact fun _ h => absurd h List.not_mem_nil
    | refine List.forall_mem_cons.2 ⟨fun x => pay_later arg2 harg2 arg3 harg3 arg5 harg5 x0 x1 xs _ _ x, ?_⟩
    | fail "piece")

/-- The accumulator's pieces after a last step, read as one function: the accumulator as found plus the clamped
    Huber term, at every entry. -/
theorem canonLast (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : ¬condFirst i) (hc1 : condLater i) (hc2 : condLast i)
    (x0 x1 xs : Vec Ideal S256x4096 .f32) (y : S256x4096.Idx) :
    View.canon (runLast (F := Ideal) c i arg2 harg2 arg3 harg3 arg4 harg4 arg5 harg5 hc0 hc1 hc2 x0 x1 xs).2.1 y
      = xs y + hubK (x0 y) (x1 y) := by
  refine View.canon_apply_of_pieces (fun y => xs y + hubK (x0 y) (x1 y)) _ ?_ y
    (coverLastAcc c i arg2 harg2 arg3 harg3 arg4 harg4 arg5 harg5 hc0 hc1 hc2 x0 x1 xs y)
  unfold runLast
  dsimp only
  repeat' (first
    | exact fun _ h => absurd h List.not_mem_nil
    | refine List.forall_mem_cons.2 ⟨fun x => pay_later arg2 harg2 arg3 harg3 arg5 harg5 x0 x1 xs _ _ x, ?_⟩
    | fail "piece")

theorem accLast_apply (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : ¬condFirst i) (hc1 : condLater i) (hc2 : condLast i)
    (x0 x1 xs : Vec Ideal S256x4096 .f32) (y : S256x4096.Idx) :
    accLast (F := Ideal) c i arg2 harg2 arg3 harg3 arg4 harg4 arg5 harg5 hc0 hc1 hc2 x0 x1 xs y = xs y + hubK (x0 y) (x1 y) := by
  unfold accLast
  rw [View.read_writes_eq_canon _ _ _ (coverLastAcc c i arg2 harg2 arg3 harg3 arg4 harg4 arg5 harg5 hc0 hc1 hc2 x0 x1 xs)]
  exact canonLast c i arg2 harg2 arg3 harg3 arg4 harg4 arg5 harg5 hc0 hc1 hc2 x0 x1 xs y

/-- The left-nested sum of n + 1 tiles of 8 x 1024: ((f 0 + f 1) + ...) + f n. -/
def chainV : (n : ℕ) → (Fin (n + 1) → S8x1024.Idx → EReal) → S8x1024.Idx → EReal
  | 0, f => f 0
  | n + 1, f => addf (F := Ideal) (φ := .f32) (chainV n fun t => f t.castSucc) (f (Fin.last (n + 1)))

/-- Entry by entry it is the sum of the tiles. -/
theorem chainV_apply : ∀ (n : ℕ) (f : Fin (n + 1) → S8x1024.Idx → EReal) (x : S8x1024.Idx), chainV n f x = ∑ t, f t x
  | 0, f, x => (Fin.sum_univ_one fun t => f t x).symm
  | n + 1, f, x => by
    rw [Fin.sum_univ_castSucc]
    show chainV n (fun t => f t.castSucc) x + f (Fin.last (n + 1)) x = _
    rw [chainV_apply n]

/-- A load through the 8 x 1024 rectangle at (8 t, col) reads, at (s', c'), row 8 t + s', column col + c'. -/
theorem emb_tile (t : Fin 32) (col : ℕ) (inb : ∀ a, (![8 * t.val, col] : Fin 2 → ℕ) a + S8x1024.size a ≤ S256x4096.size a)
    (s : Fin 8) (cc : Fin 4096) (x : S8x1024.Idx) (hs : (x 0).val = s.val) (hc : col + (x 1).val = cc.val) :
    (Rect.unit (s := S256x4096) ![8 * t.val, col] S8x1024.size inb).emb x = ix2 (grp t s) cc := by
  funext a
  refine Fin.ext ?_
  match a with
  | ⟨0, _⟩ => show 8 * t.val + 1 * (x 0).val = 8 * t.val + s.val; omega
  | ⟨1, _⟩ => show col + 1 * (x 1).val = cc.val; omega

/-- The 32 rectangles of 8 rows at column col lie inside the 256 x 4096 buffer. -/
theorem inbT (col : ℕ) (hcol : col + 1024 ≤ 4096) (t : Fin 32) :
    ∀ a, (![8 * t.val, col] : Fin 2 → ℕ) a + S8x1024.size a ≤ S256x4096.size a := fun a => by
  match a with
  | ⟨0, _⟩ => show 8 * t.val + 8 ≤ 256; omega
  | ⟨1, _⟩ => show col + 1024 ≤ 4096; omega

/-- One store of a last step into the output block, at an entry: the 32 tiles of 8 rows of the accumulator, read back
    after its stores at one column offset, added from the first to the last and stored under a leading unit axis, give at
    (0, s, c') the sum over the 32 groups t of the accumulator at row 8 t + s, column col + c'. -/
theorem out_piece (v : View sig .tc .vmem S256x4096 .f32) (L : List (View.Piece (Elt Ideal) S256x4096 .f32)) (A : S256x4096.Idx → EReal)
    (hA : ∀ y, View.canon L y = A y) (col : ℕ)
    (inb : ∀ (t : Fin 32) a, (![8 * t.val, col] : Fin 2 → ℕ) a + S8x1024.size a ≤ S256x4096.size a)
    (h : S8x1024.ShapeCasts S1x8x1024) (x : S1x8x1024.Idx) (s : Fin 8) (cc : Fin 4096)
    (hs : (x 1).val = s.val) (hc : col + (x 2).val = cc.val) :
    shapeCast S1x8x1024 (chainV 31 fun t => v.readCov L (Rect.unit (s := S256x4096) ![8 * t.val, col] S8x1024.size (inb t)).toLoadRect) h x
      = ∑ t : Fin 32, A (ix2 (grp t s) cc) := by
  refine (shapeCast_addUnit_apply ![8, 1024] _ h x).trans ?_
  refine (chainV_apply 31 _ _).trans ?_
  refine Finset.sum_congr rfl fun t _ => ?_
  rw [View.readCov_eq_canon']
  show View.canon L _ = _
  rw [hA]
  exact congrArg A (emb_tile t col (inb t) s cc _ hs hc)

theorem outLast_apply (c : Dev nD) (i : grid0.Coords) (arg2 : Memref sig .tc .vmem S256x4096 .f32) (harg2 : arg2.IsWhole) (arg3 : Memref sig .tc .vmem S256x4096 .f32) (harg3 : arg3.IsWhole) (arg4 : Memref sig .tc .vmem S1x8x4096 .f32) (harg4 : arg4.IsWhole) (arg5 : Memref sig .tc .vmem S256x4096 .f32) (harg5 : arg5.IsWhole) (hc0 : ¬condFirst i) (hc1 : condLater i) (hc2 : condLast i)
    (x0 x1 xs : Vec Ideal S256x4096 .f32) (s : Fin 8) (cc : Fin 4096) :
    outLast (F := Ideal) c i arg2 harg2 arg3 harg3 arg4 harg4 arg5 harg5 hc0 hc1 hc2 x0 x1 xs (ix3 (0 : Fin 1) s cc)
      = ∑ t : Fin 32, (xs (ix2 (grp t s) cc) + hubK (x0 (ix2 (grp t s) cc)) (x1 (ix2 (grp t s) cc))) := by
  unfold outLast
  rw [View.read_writes_eq_canon _ _ _ (coverLastOut c i arg2 harg2 arg3 harg3 arg4 harg4 arg5 harg5 hc0 hc1 hc2 x0 x1 xs)]
  refine View.canon_apply_of_pieces
    (fun y : S1x8x4096.Idx => ∑ t : Fin 32, (xs (ix2 (grp t (y 1)) (y 2)) + hubK (x0 (ix2 (grp t (y 1)) (y 2))) (x1 (ix2 (grp t (y 1)) (y 2)))))
    _ ?_ (ix3 (0 : Fin 1) s cc)
    (coverLastOut c i arg2 harg2 arg3 harg3 arg4 harg4 arg5 harg5 hc0 hc1 hc2 x0 x1 xs (ix3 (0 : Fin 1) s cc))
  have hA := canonLast c i arg2 harg2 arg3 harg3 arg4 harg4 arg5 harg5 hc0 hc1 hc2 x0 x1 xs
  unfold runLast
  dsimp only
  refine List.forall_mem_cons.2 ⟨fun x => ?_, List.forall_mem_cons.2 ⟨fun x => ?_, List.forall_mem_cons.2 ⟨fun x => ?_,
    List.forall_mem_cons.2 ⟨fun x => ?_, fun _ h => absurd h List.not_mem_nil⟩⟩⟩⟩
  · first
      | exact out_piece arg5.view _ (fun y => xs y + hubK (x0 y) (x1 y)) hA 3072 (inbT 3072 (by norm_num)) _ x _ _
          (by show (x 1).val = 0 + 1 * (x 1).val; omega) (by show 3072 + (x 2).val = 3072 + 1 * (x 2).val; omega)
      | fail "piece 3072"
  · first
      | exact out_piece arg5.view _ (fun y => xs y + hubK (x0 y) (x1 y)) hA 2048 (inbT 2048 (by norm_num)) _ x _ _
          (by show (x 1).val = 0 + 1 * (x 1).val; omega) (by show 2048 + (x 2).val = 2048 + 1 * (x 2).val; omega)
      | fail "piece 2048"
  · first
      | exact out_piece arg5.view _ (fun y => xs y + hubK (x0 y) (x1 y)) hA 1024 (inbT 1024 (by norm_num)) _ x _ _
          (by show (x 1).val = 0 + 1 * (x 1).val; omega) (by show 1024 + (x 2).val = 1024 + 1 * (x 2).val; omega)
      | fail "piece 1024"
  · first
      | exact out_piece arg5.view _ (fun y => xs y + hubK (x0 y) (x1 y)) hA 0 (inbT 0 (by norm_num)) _ x _ _
          (by show (x 1).val = 0 + 1 * (x 1).val; omega) (by show 0 + (x 2).val = 0 + 1 * (x 2).val; omega)
      | fail "piece 0"

end Cert.KernelIdeal.Body
end
-- ==== Proof.ValueIdeal.Invariant.lean ====
/-
  The accumulator after each grid point is the pure recursion on the point, and the output block after a last step is
  its fold. Block n of an input window is rows n * 256 .. n * 256 + 255 of its argument, all 4096 columns: the two
  input windows' index maps send point t to block t. So a first step leaves the block's Huber terms, an inner or last
  step adds them to what the point before left; by induction on the point the accumulator is the recursion's value,
  and at a last step the output block holds, at (0, s, c), the sum over the 32 groups of 8 rows of the accumulator.
-/
import proofs.«181023_g6820408066431_feedfinal_520_10_alg».proof.Proof.StepsIdeal.Points
import proofs.«181023_g6820408066431_feedfinal_520_10_alg».proof.Proof.ValueIdeal.PieceValues

set_option maxRecDepth 16384

noncomputable section

namespace Cert.KernelIdeal.Body

open Cert.KernelIdeal Cert.KernelIdeal.Gen Cert.Huber
open Idealize.ShloMosaic Idealize.ShloMosaic.TcCoe Idealize.ShloMosaic.ValueIdx Idealize.SL.Sem

variable (m : (ℓ : Loc nD τ sig) → Buf (Elt Ideal) ℓ)

/-! ## The index maps, decided over the grid -/

theorem idx_in0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_in1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_out : ∀ t : Fin cfg0.N, win0_2.index t (0 : Fin 3) = t.val / 32 ∧ win0_2.index t (1 : Fin 3) = 0 ∧ win0_2.index t (2 : Fin 3) = 0 :=
  (by decide +kernel : ∀ t : Fin grid0.N, win0_2.index t (0 : Fin 3) = t.val / 32 ∧ win0_2.index t (1 : Fin 3) = 0 ∧ win0_2.index t (2 : Fin 3) = 0)

/-! ## The two arguments and their blocks -/

/-- The two argument arrays as the region finds them. -/
abbrev argA (c : Dev nD) : (⟨2, ![16384, 4096]⟩ : Shape).Idx → EReal := V m c main_arg0
abbrev argB (c : Dev nD) : (⟨2, ![16384, 4096]⟩ : Shape).Idx → EReal := V m c main_arg1

/-- Row r, column cc of the first window's block at point t is row t * 256 + r of the first argument. -/
theorem iblk0_apply (c : Dev nD) (t : Fin cfg0.N) (r : Fin 256) (cc : Fin 4096) :
    (iblk m c 0 t : Vec Ideal S256x4096 .f32) (ix2 r cc) = argA m c (ix2 (rowN t.val r) cc) := by
  obtain ⟨h0, h1⟩ := idx_in0 t
  have hN : t.val < 64 := lt_of_lt_of_eq t.isLt (show cfg0.N = 64 from N_0)
  have hr := r.isLt
  unfold iblk
  rw [View.read_apply]
  show V m c main_arg0 _ = V m c main_arg0 _
  congr 1
  funext a
  apply Fin.ext
  match a with
  | ⟨0, _⟩ => show win0_0.index t 0 * 256 + 1 * r.val = (t.val * 256 + r.val) % 16384; rw [h0]; omega
  | ⟨1, _⟩ => show win0_0.index t 1 * 4096 + 1 * cc.val = cc.val; rw [h1]; omega

theorem iblk1_apply (c : Dev nD) (t : Fin cfg0.N) (r : Fin 256) (cc : Fin 4096) :
    (iblk m c 1 t : Vec Ideal S256x4096 .f32) (ix2 r cc) = argB m c (ix2 (rowN t.val r) cc) := by
  obtain ⟨h0, h1⟩ := idx_in1 t
  have hN : t.val < 64 := lt_of_lt_of_eq t.isLt (show cfg0.N = 64 from N_0)
  have hr := r.isLt
  unfold iblk
  rw [View.read_apply]
  show V m c main_arg1 _ = V m c main_arg1 _
  congr 1
  funext a
  apply Fin.ext
  match a with
  | ⟨0, _⟩ => show win0_1.index t 0 * 256 + 1 * r.val = (t.val * 256 + r.val) % 16384; rw [h0]; omega
  | ⟨1, _⟩ => show win0_1.index t 1 * 4096 + 1 * cc.val = cc.val; rw [h1]; omega

/-- The Huber terms of the two blocks at point t are block t's. -/
theorem blockTerm_at (c : Dev nD) (t : Fin cfg0.N) (r : Fin 256) (cc : Fin 4096) :
    hubK ((iblk m c 0 t : Vec Ideal S256x4096 .f32) (ix2 r cc)) ((iblk m c 1 t : Vec Ideal S256x4096 .f32) (ix2 r cc))
      = blockTerm (argA m c) (argB m c) t.val (ix2 r cc) := by
  rw [iblk0_apply, iblk1_apply]; rfl

/-! ## The accumulator after each point -/

/-- After a first step the accumulator holds block t's Huber terms. -/
theorem acc_first_at (c : Dev nD) (t : Fin cfg0.N) (h0 : t.val % 32 = 0) (r : Fin 256) (cc : Fin 4096) :
    (outsAt m c t.val t.isLt).2 (ix2 r cc) = blockTerm (argA m c) (argB m c) t.val (ix2 r cc) := by
  rw [outsAt_first m c t h0]
  dsimp only
  exact (accFirst_apply c (grid0.coords t) (msA t) (hsA t) (msB t) (hsB t) (msO t) (hsO t) scM (Memref.isWhole_whole _) ((condFirst_iff t).mpr h0) (notLater_of t h0) (notLast_of_first t h0) (iblk m c 0 t) (iblk m c 1 t) (ix2 r cc)).trans (blockTerm_at m c t r cc)

/-- After an inner step it holds what the point before left plus block t's terms. -/
theorem acc_inner_at (c : Dev nD) (t : Fin cfg0.N) (h0 : ¬t.val % 32 = 0) (h1 : ¬t.val % 32 = 31) (r : Fin 256) (cc : Fin 4096) :
    (outsAt m c t.val t.isLt).2 (ix2 r cc)
      = (outsAt m c (t.val - 1) (Nat.lt_of_le_of_lt (Nat.sub_le _ _) t.isLt)).2 (ix2 r cc) + blockTerm (argA m c) (argB m c) t.val (ix2 r cc) := by
  rw [outsAt_inner m c t h0 h1]
  dsimp only
  exact (accInner_apply c (grid0.coords t) (msA t) (hsA t) (msB t) (hsB t) (msO t) (hsO t) scM (Memref.isWhole_whole _) (notFirst_of t h0) ((condLater_iff t).mpr h0) (notLast_of t h1) (iblk m c 0 t) (iblk m c 1 t) (outsAt m c (t.val - 1) (Nat.lt_of_le_of_lt (Nat.sub_le _ _) t.isLt)).2 (ix2 r cc)).trans (congrArg (_ + ·) (blockTerm_at m c t r cc))

/-- After a last step likewise. -/
theorem acc_last_at (c : Dev nD) (t : Fin cfg0.N) (h0 : ¬t.val % 32 = 0) (h1 : t.val % 32 = 31) (r : Fin 256) (cc : Fin 4096) :
    (outsAt m c t.val t.isLt).2 (ix2 r cc)
      = (outsAt m c (t.val - 1) (Nat.lt_of_le_of_lt (Nat.sub_le _ _) t.isLt)).2 (ix2 r cc) + blockTerm (argA m c) (argB m c) t.val (ix2 r cc) := by
  rw [outsAt_last m c t h0 h1]
  dsimp only
  exact (accLast_apply c (grid0.coords t) (msA t) (hsA t) (msB t) (hsB t) (msO t) (hsO t) scM (Memref.isWhole_whole _) (notFirst_of t h0) ((condLater_iff t).mpr h0) ((condLast_iff t).mpr h1) (iblk m c 0 t) (iblk m c 1 t) (outsAt m c (t.val - 1) (Nat.lt_of_le_of_lt (Nat.sub_le _ _) t.isLt)).2 (ix2 r cc)).trans (congrArg (_ + ·) (blockTerm_at m c t r cc))

/-- By induction on the point, the accumulator after point n is the recursion's value. -/
theorem acc_eq (c : Dev nD) : ∀ (n : ℕ) (hn : n < cfg0.N) (r : Fin 256) (cc : Fin 4096),
    (outsAt m c n hn).2 (ix2 r cc) = accN (argA m c) (argB m c) n (ix2 r cc) := by
  intro n
  induction n with
  | zero =>
    intro hn r cc
    exact (acc_first_at m c ⟨0, hn⟩ (Nat.zero_mod _) r cc).trans (congrFun (accN_first _ _ 0 (Nat.zero_mod _)).symm _)
  | succ n ih =>
    intro hn r cc
    by_cases h0 : (n + 1) % 32 = 0
    · exact (acc_first_at m c ⟨n + 1, hn⟩ h0 r cc).trans (congrFun (accN_first _ _ (n + 1) h0).symm _)
    · have hprev := ih (Nat.lt_of_succ_lt hn) r cc
      by_cases h1 : (n + 1) % 32 = 31
      · refine (acc_last_at m c ⟨n + 1, hn⟩ h0 h1 r cc).trans ?_
        rw [accN_later _ _ (n + 1) h0]
        exact congrArg (· + _) hprev
      · refine (acc_inner_at m c ⟨n + 1, hn⟩ h0 h1 r cc).trans ?_
        rw [accN_later _ _ (n + 1) h0]
        exact congrArg (· + _) hprev

/-! ## The output block after a last step -/

/-- After the last step of half i the output block holds the kernel's partial sums of that half. -/
theorem out_eq (c : Dev nD) (t : Fin cfg0.N) (h1 : t.val % 32 = 31) (s : Fin 8) (cc : Fin 4096) :
    (outsAt m c t.val t.isLt).1 (ix3 (0 : Fin 1) s cc)
      = partialK (argA m c) (argB m c) (ix3 (⟨t.val / 32, by have := t.isLt; have : cfg0.N = 64 := N_0; omega⟩ : Fin 2) s cc) := by
  have hN : t.val < 64 := lt_of_lt_of_eq t.isLt (show cfg0.N = 64 from N_0)
  have h0 : ¬t.val % 32 = 0 := by omega
  rw [outsAt_last m c t h0 h1]
  dsimp only
  refine (outLast_apply c (grid0.coords t) (msA t) (hsA t) (msB t) (hsB t) (msO t) (hsO t) scM (Memref.isWhole_whole _) (notFirst_of t h0) ((condLater_iff t).mpr h0) ((condLast_iff t).mpr h1) (iblk m c 0 t) (iblk m c 1 t) (outsAt m c (t.val - 1) (Nat.lt_of_le_of_lt (Nat.sub_le _ _) t.isLt)).2 s cc).trans ?_
  have hacc : ∀ t' : Fin 32,
      (outsAt m c (t.val - 1) (Nat.lt_of_le_of_lt (Nat.sub_le _ _) t.isLt)).2 (ix2 (grp t' s) cc)
        + hubK ((iblk m c 0 t : Vec Ideal S256x4096 .f32) (ix2 (grp t' s) cc)) ((iblk m c 1 t : Vec Ideal S256x4096 .f32) (ix2 (grp t' s) cc))
      = accN (argA m c) (argB m c) t.val (ix2 (grp t' s) cc) := fun t' => by
    rw [blockTerm_at, acc_eq m c, accN_later _ _ t.val h0]
  rw [Finset.sum_congr rfl fun t' _ => hacc t']
  have ht : (⟨t.val / 32, by omega⟩ : Fin 2).val * 32 + 31 = t.val := by show t.val / 32 * 32 + 31 = t.val; omega
  exact (congrArg (fun n => ∑ t' : Fin 32, accN (argA m c) (argB m c) n (ix2 (grp t' s) cc)) ht).symm.trans
    (fold_accN (argA m c) (argB m c) ⟨t.val / 32, by omega⟩ s cc)

end Cert.KernelIdeal.Body

end
-- ==== Proof.ValueIdeal.Final.lean ====
/-
  The kernel's program, read to the end at the extended reals. The output window's blocks are written back at the last
  step of each half: block i of the [2, 8, 4096] result is what point 32 i + 31 left, the half's partial sums; the two
  blocks cover the result, so after the region it holds the partial sums everywhere. The host lines after the region
  add all of it up from the zero word and multiply by the word 2^-26: the program's result is totalK of its two
  arguments, which end unchanged.
-/
import proofs.«181023_g6820408066431_feedfinal_520_10_alg».proof.Proof.StepsIdeal.Obligation
import proofs.«181023_g6820408066431_feedfinal_520_10_alg».proof.Proof.ValueIdeal.Invariant
import Idealize.ShloMosaic.Lib.Pipeline.Value
import Idealize.ShloMosaic.Lib.StableHlo.Run
import Idealize.ShloMosaic.PureOps.Ideal.Laws

set_option maxRecDepth 16384

noncomputable section

namespace Cert.KernelIdeal.Body

open Cert.KernelIdeal Cert.KernelIdeal.Gen Cert.Huber
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The region's result array: the kernel's partial sums. -/
abbrev result (c : Dev nD) : Buf (Elt Ideal) ((c : Thread nD τ).loc main_v0) := partialK (argA m c) (argB m c)

/-- Entry q of the output block after the last step of a half is the result at q's place in that half's block. -/
theorem out_blk (c : Dev nD) (t : Fin cfg0.N) (h1 : t.val % 32 = 31) (q : S1x8x4096.Idx) :
    (outsAt m c t.val t.isLt).1 q = result m c (((cfg0.win 2).blk t).view.emb q) := by
  obtain ⟨z, s, cc, rfl⟩ : ∃ (z : Fin 1) (s : Fin 8) (cc : Fin 4096), q = ix3 z s cc := ⟨q 0, q 1, q 2, eq_ix3 q⟩
  obtain rfl : z = 0 := Subsingleton.elim _ _
  rw [out_eq m c t h1]
  obtain ⟨e0, e1, e2⟩ := idx_out t
  have hN : t.val < 64 := lt_of_lt_of_eq t.isLt (show cfg0.N = 64 from N_0)
  show partialK _ _ _ = partialK _ _ _
  congr 1
  funext a
  apply Fin.ext
  match a with
  | ⟨0, _⟩ => show t.val / 32 = win0_2.index t 0 * 1 + 1 * 0; rw [e0]; omega
  | ⟨1, _⟩ => show s.val = win0_2.index t 1 * 8 + 1 * s.val; rw [e1]; omega
  | ⟨2, _⟩ => show cc.val = win0_2.index t 2 * 4096 + 1 * cc.val; rw [e2]; omega

/-- What a write-back writes is the result's block. -/
theorem flushed_eq (c : Dev nD) (t : Fin cfg0.N) (hf : (cfg0.win 2).flush t = true) :
    (dats m 0 c).flushed 2 t = ((cfg0.win 2).blk t).view.read (Elt Ideal) (result m c) := by
  have h1 : t.val % 32 = 31 := (flush0_2 t).mp hf
  show (cfg0.win 2).cut (grid0.coords t) ((dats m 0 c).after 2 t) = _
  rw [after_out]
  funext q
  exact out_blk m c t h1 q

/-- The two write-backs cover the result, so after the region it is the partial sums. -/
theorem final_out (c : Dev nD) : (dats m 0 c).arrAt 2 cfg0.N = result m c :=
  (dats m 0 c).arrAt_eq_of_cover 2 (result m c) (flushed_eq m c) fun i => by
    have hi0 : (i 0).val < 2 := (i 0).isLt
    have hi1 : (i 1).val < 8 := (i 1).isLt
    have hi2 : (i 2).val < 4096 := (i 2).isLt
    have hN : cfg0.N = 64 := N_0
    have hlt : 32 * (i 0).val + 31 < cfg0.N := by omega
    obtain ⟨e0, e1, e2⟩ := idx_out ⟨32 * (i 0).val + 31, hlt⟩
    have e0' : win0_2.index ⟨32 * (i 0).val + 31, hlt⟩ 0 = (32 * (i 0).val + 31) / 32 := e0
    refine ⟨⟨32 * (i 0).val + 31, hlt⟩, (flush0_2 _).mpr (by show (32 * (i 0).val + 31) % 32 = 31; omega), ?_⟩
    show i ∈ ((View.whole main_v0).slice (win0_2.rect ⟨32 * (i 0).val + 31, hlt⟩)).set
    rw [View.set_slice_whole, Rect.mem_set_unit]
    intro a
    match a with
    | ⟨0, _⟩ => show win0_2.index ⟨32 * (i 0).val + 31, hlt⟩ 0 * 1 ≤ (i 0).val ∧ (i 0).val < win0_2.index ⟨32 * (i 0).val + 31, hlt⟩ 0 * 1 + 1
                rw [e0']; omega
    | ⟨1, _⟩ => show win0_2.index ⟨32 * (i 0).val + 31, hlt⟩ 1 * 8 ≤ (i 1).val ∧ (i 1).val < win0_2.index ⟨32 * (i 0).val + 31, hlt⟩ 1 * 8 + 8
                rw [e1]; omega
    | ⟨2, _⟩ => show win0_2.index ⟨32 * (i 0).val + 31, hlt⟩ 2 * 4096 ≤ (i 2).val ∧ (i 2).val < win0_2.index ⟨32 * (i 0).val + 31, hlt⟩ 2 * 4096 + 4096
                rw [e2]; omega

/-- The host lines after the region: the total from the zero word, times the word 2^-26. -/
theorem tail_eq (c : Dev nD) :
    Pipeline.afterTail₀ cfgs (dats m) 0 (V0 m) [hostOps1] c main_v2 = fun _ => totalK (argA m c) (argB m c) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v0) = result m c :=
    (Pipeline.withArrays_arr spec0 launch0.win.arr_inj c _ _ 2).trans (final_out m c)
  rw [hw]
  funext j
  simp only [mulf, Host.reduceAdd, Ideal.hostReduceAdd_def]
  rw [Ideal.hostReduceAdd_total _ (fun b => b.elim0) (result m c) _ j]
  rfl

/-- The kernel's program runs to the end with its result at totalK of its two arguments, which end unchanged. -/
theorem kernel_total : θ_run defs (onTc (τ := τ) (main (F := Ideal))) ⟨m, fun _ => 0, ρ⟩ (fun r => ∀ c : Dev nD,
      r.2.mem ((c.tc : Thread nD τ).loc main_v2)
        = (fun _ => totalK (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v2 (by decide)).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Body

end
-- ==== Proof.HuberLaws.lean ====
/-
  The laws that join the two spellings of the Huber term and the two orders of summation, over the extended reals.

  * For real a and b the clamped spelling m * (|d| - 1/2 * m), m = min |d| 1, d = a - b, is the branching one,
    (1/2 * d) * d when |d| <= 1 and 1 * (|d| - 1/2) otherwise: below the knee m = |d| and
    |d| * (|d| - |d|/2) = d^2/2, above it m = 1. (At an infinite d the two differ, which is why the entries are real.)
  * The block order of summation (2 halves, 8 rows of a group, 4096 columns; inside, 32 groups and 32 blocks) visits
    every entry of the [16384, 4096] array once: (i, s, t, j) -> ((i * 32 + j) * 256) + 8 * t + s is a bijection onto the rows,
    and a finite sum in a commutative monoid does not depend on its order. No finiteness is needed for this.
  * The product with the word 2^-26 is the quotient by the word 2^26, at every extended real.
-/
import proofs.«181023_g6820408066431_feedfinal_520_10_alg».proof.Proof.HuberSpec
import Idealize.ShloMosaic.PureOps.Ideal
import Idealize.ShloMosaic.Lib.ValueIdx

noncomputable section

namespace Cert.Huber

open Idealize.ShloMosaic Idealize.ShloMosaic.ValueIdx
open scoped BigOperators

/-! ## The words as extended reals -/

theorem wOne_eq : wOne = ((1 : ℝ) : EReal) := by
  simp [wOne, Ideal.ofBits, Ideal.ieee, -EReal.coe_mul]; norm_num

theorem wHalf_eq : wHalf = ((1 / 2 : ℝ) : EReal) := by
  simp [wHalf, Ideal.ofBits, Ideal.ieee, -EReal.coe_mul]; norm_num

theorem wScale_eq : wScale = ((1 / 67108864 : ℝ) : EReal) := by
  simp [wScale, Ideal.ofBits, Ideal.ieee, -EReal.coe_mul]; norm_num

theorem wCount_eq : wCount = ((67108864 : ℝ) : EReal) := by
  simp [wCount, Ideal.ofBits, Ideal.ieee, -EReal.coe_mul]; norm_num

/-! ## The two spellings agree on the reals -/

/-- The branching spelling of the Huber term of a - b: the comparison |d| <= 1 as the one-bit word it is at the
    extended reals, choosing (1/2 * d) * d or 1 * (|d| - 1/2). -/
def hubR (a b : EReal) : EReal :=
  Scalar.select (Ideal.cmp .ole (max (a - b) (-(a - b))) wOne)
    (wHalf * (a - b) * (a - b)) (wOne * (max (a - b) (-(a - b)) - wHalf))

/-- A select on the comparison x <= y is the if on x <= y. -/
theorem select_cmp_ole {α : Type} (x y : EReal) (A B : α) :
    Scalar.select (Ideal.cmp .ole x y) A B = if x ≤ y then A else B := by
  by_cases h : x ≤ y
  · simp [Scalar.select, Ideal.cmp, h]
  · simp [Scalar.select, Ideal.cmp, h]

/-- On the reals: min |d| 1 * (|d| - 1/2 * min |d| 1) is d^2/2 below the knee and |d| - 1/2 above it. -/
theorem hub_real (d : ℝ) :
    min |d| 1 * (|d| - 1 / 2 * min |d| 1) = if |d| ≤ 1 then 1 / 2 * d * d else 1 * (|d| - 1 / 2) := by
  by_cases h : |d| ≤ 1
  · rw [if_pos h, min_eq_left h]
    have : |d| * |d| = d * d := abs_mul_abs_self d
    linear_combination (1 / 2 : ℝ) * this
  · rw [if_neg h, min_eq_right (le_of_lt (not_le.mp h))]
    ring

theorem hub_eq_of_real (a b : ℝ) : hubK (a : EReal) (b : EReal) = hubR (a : EReal) (b : EReal) := by
  have hd : (a : EReal) - (b : EReal) = ((a - b : ℝ) : EReal) := (EReal.coe_sub a b).symm
  have habs : max ((a - b : ℝ) : EReal) (-((a - b : ℝ) : EReal)) = ((|a - b| : ℝ) : EReal) := by
    rw [← EReal.coe_neg, ← EReal.coe_strictMono.monotone.map_max, abs_eq_max_neg]
  unfold hubK hubR
  rw [select_cmp_ole, hd, habs, wOne_eq, wHalf_eq]
  rw [← EReal.coe_strictMono.monotone.map_min, ← EReal.coe_mul, ← EReal.coe_sub, ← EReal.coe_mul, ← EReal.coe_mul, ← EReal.coe_mul,
    ← EReal.coe_sub, ← EReal.coe_mul, hub_real (a - b)]
  by_cases h : |a - b| ≤ 1
  · rw [if_pos h, if_pos (EReal.coe_le_coe_iff.mpr h)]
  · rw [if_neg h, if_neg (fun h' => h (EReal.coe_le_coe_iff.mp h'))]

/-! ## The block order visits every row once -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The rows by half, row of the group, group and block: (i, s, t, j) is row ((i * 32 + j) * 256) + 8 * t + s, and every
    row is one of these exactly once (divide by 8192, by 256, by 8). -/
def rowEquiv : Fin 2 × Fin 8 × Fin 32 × Fin 32 ≃ Fin 16384 where
  toFun p := rowOf p.1 p.2.2.2 p.2.2.1 p.2.1
  invFun r := (⟨r.val / 8192, by omega⟩, ⟨r.val % 8, by omega⟩, ⟨r.val / 8 % 32, by omega⟩, ⟨r.val / 256 % 32, by omega⟩)
  left_inv := by
    rintro ⟨i, s, t, j⟩
    simp only [rowOf, Prod.mk.injEq, Fin.ext_iff]
    refine ⟨?_, ?_, ?_, ?_⟩ <;> omega
  right_inv r := by
    apply Fin.ext
    simp only [rowOf]
    omega

/-- A sum over the rows in the block order is the sum over the rows. -/
theorem sum_rows {M : Type*} [AddCommMonoid M] (g : Fin 16384 → M) :
    ∑ i : Fin 2, ∑ s : Fin 8, ∑ t : Fin 32, ∑ j : Fin 32, g (rowOf i j t s) = ∑ r : Fin 16384, g r := by
  rw [← Equiv.sum_comp rowEquiv g]
  simp only [Fintype.sum_prod_type]
  rfl

theorem regroup (f : (⟨2, ![16384, 4096]⟩ : Shape).Idx → EReal) :
    ∑ q : (⟨3, ![2, 8, 4096]⟩ : Shape).Idx, ∑ t : Fin 32, ∑ j : Fin 32, f (ix2 (rowOf (q 0) j t (q 1)) (q 2))
      = ∑ i : (⟨2, ![16384, 4096]⟩ : Shape).Idx, f i := by
  rw [sum_idx3, sum_idx2, ← sum_rows (fun r => ∑ c : Fin 4096, f (ix2 r c))]
  refine Finset.sum_congr rfl fun a _ => Finset.sum_congr rfl fun s _ => ?_
  rw [Finset.sum_comm]
  refine Finset.sum_congr rfl fun t _ => ?_
  rw [Finset.sum_comm]

/-! ## The factor 2^-26 is the quotient by 2^26 -/

theorem scale_eq_div (S : EReal) : S * wScale = Ideal.div S wCount := by
  rw [wScale_eq, wCount_eq, Ideal.div_coe (by norm_num : (67108864 : ℝ) ≠ 0)]

/-! ## The kernel's total is the mean of the branching spelling -/

theorem totalK_eq_mean (a b : (⟨2, ![16384, 4096]⟩ : Shape).Idx → EReal)
    (ha : ∀ i, ∃ r : ℝ, a i = (r : EReal)) (hb : ∀ i, ∃ r : ℝ, b i = (r : EReal)) :
    totalK a b = Ideal.div (wZero + ∑ i, hubR (a i) (b i)) wCount := by
  have hK : ∀ i, hubK (a i) (b i) = hubR (a i) (b i) := fun i => by
    obtain ⟨x, hx⟩ := ha i
    obtain ⟨y, hy⟩ := hb i
    rw [hx, hy]
    exact hub_eq_of_real x y
  unfold totalK
  rw [scale_eq_div, ← regroup (fun i => hubR (a i) (b i))]
  simp only [partialK, hK]

end Cert.Huber

end
-- ==== Proof.RefValue.lean ====
/-
  The reference's result as one function of its two arguments. Its twenty operations, read at an index, are the
  branching spelling of the Huber term of the two entries; summed over every index from the zero word and divided by
  the word 2^26. For real entries that is the kernel's total in its block order times 2^-26 (the laws), so the
  reference's run ends with that total, the arguments unchanged.
-/
import proofs.«181023_g6820408066431_feedfinal_520_10_alg».proof.Defs
import proofs.«181023_g6820408066431_feedfinal_520_10_alg».proof.Proof.Gen.ReferenceIdeal.Read
import proofs.«181023_g6820408066431_feedfinal_520_10_alg».proof.Proof.Gen.Pre_finite_inputs
import proofs.«181023_g6820408066431_feedfinal_520_10_alg».proof.Proof.HuberSpec
import proofs.«181023_g6820408066431_feedfinal_520_10_alg».proof.Proof.HuberLaws

noncomputable section

namespace Cert.ReferenceIdeal.RefValue

open Cert.ReferenceIdeal Cert.ReferenceIdeal.Gen Idealize.ShloMosaic Idealize.ShloMosaic.TcCoe Idealize.SL.Sem
open scoped BigOperators

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The selected value at an index is the branching spelling of the Huber term of the two entries there. -/
theorem select_at (a b : FVec Ideal S16384x4096 .f32) (i : S16384x4096.Idx) :
    Read.val_main_v11 (F := Ideal) a b i = Cert.Huber.hubR (a i) (b i) := by
  rw [Read.val_main_v11_apply, Read.val_main_v3_apply, Read.val_main_v6_apply, Read.val_main_v10_apply,
    Read.val_main_v5_apply, Read.val_main_v9_apply, Read.val_main_v8_apply, Read.val_main_v7_apply,
    Read.val_main_v4_apply, Read.val_main_v2_apply, Read.val_main_v1_apply, Read.val_main_v0_apply,
    Read.val_main_cst_apply, Read.val_main_cst_0_apply, Read.val_main_cst_1_apply, Read.val_main_cst_2_apply]
  rfl

/-- The reference's last stage: the sum of the branching spelling over every index, from the zero word, divided by
    the word 2^26. -/
theorem value_eq (a b : FVec Ideal S16384x4096 .f32) :
    Read.val_main_v13 (F := Ideal) a b
      = fun _ => Ideal.div (Cert.Huber.wZero + ∑ i, Cert.Huber.hubR (a i) (b i)) Cert.Huber.wCount := by
  funext j
  rw [Read.val_main_v13_apply, Read.val_main_v12_apply, Read.val_main_cst_4_apply, Read.val_main_cst_3_apply]
  simp only [select_at]
  rfl

/-- From a memory whose two arguments hold reals, the reference runs, ends with the kernel's total in its result and
    leaves the arguments unchanged. -/
theorem ref_total (m' : (ℓ : Loc nD τ sig) → Buf (Elt Ideal) ℓ) (g' : Dev nD → PrngReg)
    (ha : ∀ (c : Dev nD) i, ∃ r : ℝ, m' ((c.tc : Thread nD τ).loc main_arg0) i = (r : EReal))
    (hb : ∀ (c : Dev nD) i, ∃ r : ℝ, m' ((c.tc : Thread nD τ).loc main_arg1) i = (r : EReal)) :
    θ_run (Cert.ReferenceIdeal.defs (F := Ideal)) (onTc (τ := τ) (Cert.ReferenceIdeal.main (F := Ideal))) ⟨m', fun _ => 0, g'⟩
      (fun r => ∀ c : Dev nD,
        r.2.mem ((c.tc : Thread nD τ).loc main_v13)
            = (fun _ => Cert.Huber.totalK (m' ((c.tc : Thread nD τ).loc main_arg0)) (m' ((c.tc : Thread nD τ).loc main_arg1)))
        ∧ r.2.mem ((c.tc : Thread nD τ).loc main_arg0) = m' ((c.tc : Thread nD τ).loc main_arg0)
        ∧ r.2.mem ((c.tc : Thread nD τ).loc main_arg1) = m' ((c.tc : Thread nD τ).loc main_arg1)) :=
  (θ_run Cert.ReferenceIdeal.defs _ _).mono
    (fun _ h c => ⟨(h c).1.trans ((Read.val_main_v13_eq _ _).trans ((value_eq _ _).trans
        (funext fun _ => (Cert.Huber.totalK_eq_mean _ _ (ha c) (hb c)).symm))), (h c).2⟩)
    (Cert.ReferenceIdeal.Value.run (F := Ideal) m' g')

end Cert.ReferenceIdeal.RefValue

end
-- ==== Proof.Finite.lean ====
/-
  From the precondition to real entries. The printed predicate is: every |x| < +inf over the first array, and the
  same over the second, the two joined by and. If it is all ones, each conjunct is one, each reduction by and met
  only ones, so every entry x has max x (-x) below the top of the extended reals: x is neither infinity, hence a real.
-/
import proofs.«181023_g6820408066431_feedfinal_520_10_alg».proof.Pre_finite_inputs
import Idealize.ShloMosaic.PureOps.Ideal
import Idealize.ShloMosaic.Lib.ValueIdx
import Idealize.ShloMosaic.Lib.ReduceAll

noncomputable section

namespace Cert.Huber

open Idealize.ShloMosaic Idealize.ShloMosaic.ValueIdx

/-- The scalar shape has one index. -/
instance : Subsingleton Cert.Pre_finite_inputs.S_.Idx := ⟨fun a b => funext fun d => d.elim0⟩

/-- An extended real whose absolute value compares below the word of +inf is a real. -/
theorem real_of_abs_lt_inf (v : EReal)
    (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  have hlt : max v (-v) < ⊤ := by
    by_contra hn
    simp [Ideal.cmp, hn] at h
  have h1 : v ≠ ⊤ := fun e => by rw [e] at hlt; simp at hlt
  have h2 : v ≠ ⊥ := fun e => by rw [e] at hlt; simp at hlt
  exact ⟨v.toReal, (EReal.coe_toReal h1 h2).symm⟩

/-- If the printed predicate of two [16384, 4096] arrays at the extended reals is all ones, every entry of both
    is a real. -/
theorem finite_of_pre [Cert.Pre_finite_inputs.Facts] (a b : FVec Ideal Cert.Pre_finite_inputs.S16384x4096 .f32)
    (h : Cert.Pre_finite_inputs.fn (F := Ideal) a b = (fun _ => 1#1)) :
    (∀ i, ∃ r : ℝ, a i = (r : EReal)) ∧ (∀ i, ∃ r : ℝ, b i = (r : EReal)) := by
  have h0 := congrFun h ix0
  dsimp only [Cert.Pre_finite_inputs.fn] at h0
  obtain ⟨ha, hb⟩ := IntOp.andi_eq_one.1 h0
  exact ⟨fun i => real_of_abs_lt_inf (a i) (Host.reduce_andi_all _ _ _ _ _ ha i),
    fun i => real_of_abs_lt_inf (b i) (Host.reduce_andi_all _ _ _ _ _ hb i)⟩

end Cert.Huber

end
-- ==== Proof.lean ====
/-
  Mean Huber loss (knee 1) over two [16384, 4096] arrays: a kernel that accumulates the clamped spelling of the Huber
  term, m * (|d| - m / 2) with m = min |d| 1, block by block into a 256 x 4096 accumulator over a 2 x 32 grid, folds the
  accumulator's rows into an [2, 8, 4096] array of partial sums, adds those up and multiplies by 2^-26 — against the
  reference that takes the branching spelling, d^2 / 2 for |d| <= 1 and |d| - 1/2 beyond, sums it over the whole array
  and divides by 2^26.

  The three frames: each program runs to the end, faults nowhere and leaves its two arguments unchanged. For the kernel's
  two programs this is the run of the body at every grid point — a first, an inner or a last step of a half — under the
  invariant that carries the accumulator from one point to the next. For the reference it is its run with the result
  dropped.
  The idealization rewrote nothing, so there is nothing to preserve.
  At the extended reals both programs end at one number: the kernel's is the total of its partial sums times 2^-26, and
  the reference's is that number because (a) for REAL entries — the precondition — the two spellings of the Huber term
  agree, (b) the kernel's blocks, groups and rows enumerate the 16384 rows once each, and sums commute and associate, and
  (c) multiplying by 2^-26 is dividing by 2^26.
-/
import proofs.«181023_g6820408066431_feedfinal_520_10_alg».proof.Defs
import proofs.«181023_g6820408066431_feedfinal_520_10_alg».proof.Proof.Gen.Kernel
import proofs.«181023_g6820408066431_feedfinal_520_10_alg».proof.Proof.Gen.KernelIdeal
import proofs.«181023_g6820408066431_feedfinal_520_10_alg».proof.Proof.Gen.ReferenceIdeal
import proofs.«181023_g6820408066431_feedfinal_520_10_alg».proof.Proof.Gen.Pre_finite_inputs
import proofs.«181023_g6820408066431_feedfinal_520_10_alg».proof.Proof.StepsBits.Obligation
import proofs.«181023_g6820408066431_feedfinal_520_10_alg».proof.Proof.StepsIdeal.Obligation
import proofs.«181023_g6820408066431_feedfinal_520_10_alg».proof.Proof.ValueIdeal.Final
import proofs.«181023_g6820408066431_feedfinal_520_10_alg».proof.Proof.RefValue
import proofs.«181023_g6820408066431_feedfinal_520_10_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := Cert.ReferenceIdeal.RefValue.frame_ri

theorem preserves : Cert.preserves_Kernel_KernelIdeal := trivial

/-- Both idealized programs end at totalK of the kernel's two arguments: the kernel's by its run, the reference's because
    its arguments agree with the kernel's and are real. -/
theorem algebraic : Cert.algebraic_KernelIdeal_ReferenceIdeal := by
  intro m g m' g' hpre hagree
  have hfin := fun c => Cert.Huber.finite_of_pre _ _ (hpre c)
  have ha : ∀ (c : Dev Cert.ReferenceIdeal.nD) i, ∃ r : ℝ, m' ((c.tc : Thread Cert.ReferenceIdeal.nD Cert.ReferenceIdeal.τ).loc Cert.ReferenceIdeal.main_arg0) i = (r : EReal) :=
    fun c i => by rw [(hagree c).1]; exact (hfin c).1 i
  have hb : ∀ (c : Dev Cert.ReferenceIdeal.nD) i, ∃ r : ℝ, m' ((c.tc : Thread Cert.ReferenceIdeal.nD Cert.ReferenceIdeal.τ).loc Cert.ReferenceIdeal.main_arg1) i = (r : EReal) :=
    fun c i => by rw [(hagree c).2]; exact (hfin c).2 i
  refine ⟨fun c => fun _ => Cert.Huber.totalK (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Body.kernel_total m g, ?_⟩
  refine (θ_run Cert.ReferenceIdeal.defs _ _).mono (fun _ h c => ⟨?_, (h c).2⟩) (Cert.ReferenceIdeal.RefValue.ref_total m' g' ha hb)
  rw [(h c).1, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
